-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x8192x64 : Shape := ⟨4, ![32, 3, 8192, 64]⟩
abbrev S32x8192x3 : Shape := ⟨3, ![32, 8192, 3]⟩
abbrev S_ : Shape := ⟨0, ![]⟩

class Facts : Prop where
  bcast_S_S32x3x8192x64 : S_.BroadcastsInDim S32x3x8192x64 (![] : Fin 0 → Fin S32x3x8192x64.rank)
  reducesTo_S32x3x8192x64_S_d0_1_2_3 : S32x3x8192x64.ReducesTo [0, 1, 2, 3] S_
  h_S_ : 0 < S_.numel
  bcast_S_S32x8192x3 : S_.BroadcastsInDim S32x8192x3 (![] : Fin 0 → Fin S32x8192x3.rank)
  reducesTo_S32x8192x3_S_d0_1_2 : S32x8192x3.ReducesTo [0, 1, 2] S_

variable [Facts]

def fn {F : FTy → Type} [FloatOps F] (main_arg0 : FVec F S32x3x8192x64 .f32) (main_arg1 : FVec F S32x8192x3 .f32) : IVec S_ 1 :=
  let main_v0 : FVec F S32x3x8192x64 .f32 := Host.absf main_arg0
  let main_cst : FVec F S_ .f32 := constant S_ .f32 0x7F800000#32
  let main_v1 : FVec F S32x3x8192x64 .f32 := broadcastInDim S32x3x8192x64 ![] bcast_S_S32x3x8192x64 main_cst
  let main_v2 : IVec S32x3x8192x64 1 := cmpf .olt main_v0 main_v1
  let main_c : IVec S_ 1 := constantI S_ 1 1#1
  let main_v3 : IVec S_ 1 := (fun x v => Host.reduce IntOp.andi x v reducesTo_S32x3x8192x64_S_d0_1_2_3 h_S_) main_v2 main_c
  let main_v4 : FVec F S32x8192x3 .f32 := Host.absf main_arg1
  let main_cst_0 : FVec F S_ .f32 := constant S_ .f32 0x7F800000#32
  let main_v5 : FVec F S32x8192x3 .f32 := broadcastInDim S32x8192x3 ![] bcast_S_S32x8192x3 main_cst_0
  let main_v6 : IVec S32x8192x3 1 := cmpf .olt main_v4 main_v5
  let main_c_1 : IVec S_ 1 := constantI S_ 1 1#1
  let main_v7 : IVec S_ 1 := (fun x v => Host.reduce IntOp.andi x v reducesTo_S32x8192x3_S_d0_1_2 h_S_) main_v6 main_c_1
  let main_v8 : IVec S_ 1 := andi main_v3 main_v7
  main_v8
-- ==== Kernel.lean ====
abbrev S32x3x8192x64 : Shape := ⟨4, ![32, 3, 8192, 64]⟩
abbrev S32x8192x3 : Shape := ⟨3, ![32, 8192, 3]⟩
abbrev S32x8192x30 : Shape := ⟨3, ![32, 8192, 30]⟩
abbrev S1x3x1024x64 : Shape := ⟨4, ![1, 3, 1024, 64]⟩
abbrev S1x1024x3 : Shape := ⟨3, ![1, 1024, 3]⟩
abbrev S1x1024x30 : Shape := ⟨3, ![1, 1024, 30]⟩
abbrev S3x1024x64 : Shape := ⟨3, ![3, 1024, 64]⟩
abbrev S3x1024 : Shape := ⟨2, ![3, 1024]⟩
abbrev S3x1024x1 : Shape := ⟨3, ![3, 1024, 1]⟩
abbrev S1x1024x64 : Shape := ⟨3, ![1, 1024, 64]⟩
abbrev S1024x64 : Shape := ⟨2, ![1024, 64]⟩
abbrev S1024x3 : Shape := ⟨2, ![1024, 3]⟩
abbrev S1024 : Shape := ⟨1, ![1024]⟩
abbrev S1x1024 : Shape := ⟨2, ![1, 1024]⟩
abbrev S30x1024 : Shape := ⟨2, ![30, 1024]⟩
abbrev S1024x30 : Shape := ⟨2, ![1024, 30]⟩

abbrev nBuf : Space → Nat
  | .hbm => 3
  | .vmem => 6
  | .smem => 0
  | _ => 0

abbrev bufTy : (tb : Table) → Fin (tcTables nBuf tb) → BufTy
  | .hbm, ⟨0, _⟩ => ⟨S32x3x8192x64, .f32⟩
  | .hbm, ⟨1, _⟩ => ⟨S32x8192x3, .f32⟩
  | .hbm, ⟨2, _⟩ => ⟨S32x8192x30, .f32⟩
  | .local _ .vmem, ⟨0, _⟩ => ⟨S1x3x1024x64, .f32⟩
  | .local _ .vmem, ⟨1, _⟩ => ⟨S1x3x1024x64, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x30, .f32⟩
  | .local _ .vmem, ⟨5, _⟩ => ⟨S1x1024x30, .f32⟩
  | _, _ => ⟨S32x3x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x3x1024x64_S1x3x1024x64_0_0_0_0 : ∀ a, (![0, 0, 0, 0] : Fin 4 → Nat) a + S1x3x1024x64.size a ≤ S1x3x1024x64.size a
  h_S1x3x1024x64 : 0 < S1x3x1024x64.numel
  shapeCasts_S1x3x1024x64_S3x1024x64 : S1x3x1024x64.ShapeCasts S3x1024x64
  reduces_S3x1024x64_S3x1024 : S3x1024x64.Reduces [2] S3x1024
  shapeCasts_S3x1024_S3x1024x1 : S3x1024.ShapeCasts S3x1024x1
  broadcasts_S3x1024x1_S3x1024x64 : S3x1024x1.Broadcasts S3x1024x64
  slices_S3x1024x64_o0_0_0_S1x1024x64 : S3x1024x64.Slices ![0, 0, 0] S1x1024x64
  shapeCasts_S1x1024x64_S1024x64 : S1x1024x64.ShapeCasts S1024x64
  slices_S3x1024x64_o1_0_0_S1x1024x64 : S3x1024x64.Slices ![1, 0, 0] S1x1024x64
  slices_S3x1024x64_o2_0_0_S1x1024x64 : S3x1024x64.Slices ![2, 0, 0] S1x1024x64
  natLt_1_32 : 1 < 32
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  transposes_S1024x3_p1_0_S3x1024 : S1024x3.Transposes [1, 0] S3x1024
  reduces_S1024x64_S1024 : S1024x64.Reduces [1] S1024
  shapeCasts_S1024x64_S1x1024x64 : S1024x64.ShapeCasts S1x1024x64
  broadcasts_S1x1024x64_S3x1024x64 : S1x1024x64.Broadcasts S3x1024x64
  shapeCasts_S1024_S1x1024 : S1024.ShapeCasts S1x1024
  broadcasts_S1x1024_S3x1024 : S1x1024.Broadcasts S3x1024
  concatenates_S3x1024_S3x1024_S3x1024_S3x1024_S3x1024_S3x1024_S3x1024_S3x1024_S3x1024_S3x1024_S30x1024_d0 : Shape.Concatenates [S3x1024, S3x1024, S3x1024, S3x1024, S3x1024, S3x1024, S3x1024, S3x1024, S3x1024, S3x1024] S30x1024 0
  transposes_S30x1024_p1_0_S1024x30 : S30x1024.Transposes [1, 0] S1024x30
  inb_S1x1024x30_S1x1024x30_0_0_0 : ∀ a, (![0, 0, 0] : Fin 3 → Nat) a + S1x1024x30.size a ≤ S1x1024x30.size a
  h_S1x1024x30 : 0 < S1x1024x30.numel
  shapeCasts_S1x1024x30_S1024x30 : S1x1024x30.ShapeCasts S1024x30
  shapeCasts_S1024x30_S1x1024x30 : S1024x30.ShapeCasts S1x1024x30
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024x64.size a ≤ S32x3x8192x64.size a
  hwx0_0 : ∀ i : grid0.Coords, EltTy.bits .f32 = 32 ∨ (Rect.block (s := S32x3x8192x64) S1x3x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x8192x3.size a
  hwx0_1 : ∀ i : grid0.Coords, EltTy.bits .f32 = 32 ∨ (Rect.block (s := S32x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x30.size a ≤ S32x8192x30.size a
  hwx0_2 : ∀ i : grid0.Coords, EltTy.bits .f32 = 32 ∨ (Rect.block (s := S32x8192x30) S1x1024x30.size (cc0_transform_2 i) (hinb0_2 i)).WholeWords (EltTy.packing .f32)

variable [Facts₀]

abbrev win0_0 : Pipeline.Window sig grid0 :=
  Pipeline.Window.ofSpec (Memref.whole main_arg0) S1x3x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x8192x64 : Shape := ⟨4, ![32, 3, 8192, 64]⟩
abbrev S32x8192x3 : Shape := ⟨3, ![32, 8192, 3]⟩
abbrev S32x8192x64x3 : Shape := ⟨4, ![32, 8192, 64, 3]⟩
abbrev S262144x64x3 : Shape := ⟨3, ![262144, 64, 3]⟩
abbrev S_ : Shape := ⟨0, ![]⟩
abbrev S262144x3 : Shape := ⟨2, ![262144, 3]⟩
abbrev S262144x1x3 : Shape := ⟨3, ![262144, 1, 3]⟩
abbrev S262144x64x1 : Shape := ⟨3, ![262144, 64, 1]⟩
abbrev S262144x64 : Shape := ⟨2, ![262144, 64]⟩
abbrev S1x1x8 : Shape := ⟨3, ![1, 1, 8]⟩
abbrev S262144x64x8 : Shape := ⟨3, ![262144, 64, 8]⟩
abbrev S262144x8x3 : Shape := ⟨3, ![262144, 8, 3]⟩
abbrev S262144x8 : Shape := ⟨2, ![262144, 8]⟩
abbrev S262144x8x1 : Shape := ⟨3, ![262144, 8, 1]⟩
abbrev S262144x24 : Shape := ⟨2, ![262144, 24]⟩
abbrev S262144x30 : Shape := ⟨2, ![262144, 30]⟩
abbrev S32x8192x30 : Shape := ⟨3, ![32, 8192, 30]⟩

abbrev nBuf : Space → Nat
  | .hbm => 73
  | .vmem => 0
  | .smem => 0
  | _ => 0

abbrev bufTy : (tb : Table) → Fin (tcTables nBuf tb) → BufTy
  | .hbm, ⟨0, _⟩ => ⟨S32x3x8192x64, .f32⟩
  | .hbm, ⟨1, _⟩ => ⟨S32x8192x3, .f32⟩
  | .hbm, ⟨2, _⟩ => ⟨S32x8192x64x3, .f32⟩
  | .hbm, ⟨3, _⟩ => ⟨S262144x64x3, .f32⟩
  | .hbm, ⟨4, _⟩ => ⟨S_, .i32⟩
  | .hbm, ⟨5, _⟩ => ⟨S_, .f32⟩
  | .hbm, ⟨6, _⟩ => ⟨S262144x3, .f32⟩
  | .hbm, ⟨7, _⟩ => ⟨S262144x1x3, .f32⟩
  | .hbm, ⟨8, _⟩ => ⟨S_, .f32⟩
  | .hbm, ⟨9, _⟩ => ⟨S262144x1x3, .f32⟩
  | .hbm, ⟨10, _⟩ => ⟨S262144x1x3, .f32⟩
  | .hbm, ⟨11, _⟩ => ⟨S262144x64x3, .f32⟩
  | .hbm, ⟨12, _⟩ => ⟨S262144x64x3, .f32⟩
  | .hbm, ⟨13, _⟩ => ⟨S262144x64x3, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S262144x3, .f32⟩
  | .hbm, ⟨19, _⟩ => ⟨S262144x3, .f32⟩
  | .hbm, ⟨20, _⟩ => ⟨S262144x3, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S262144x3, .f32⟩
  | .hbm, ⟨26, _⟩ => ⟨S262144x3, .f32⟩
  | .hbm, ⟨27, _⟩ => ⟨S262144x3, .f32⟩
  | .hbm, ⟨28, _⟩ => ⟨S262144x3, .f32⟩
  | .hbm, ⟨29, _⟩ => ⟨S262144x64x1, .f32⟩
  | .hbm, ⟨30, _⟩ => ⟨S262144x64, .f32⟩
  | .hbm, ⟨31, _⟩ => ⟨S_, .f32⟩
  | .hbm, ⟨32, _⟩ => ⟨S262144x64, .f32⟩
  | .hbm, ⟨33, _⟩ => ⟨S262144x64, .i1⟩
  | .hbm, ⟨34, _⟩ => ⟨S262144x64, .i32⟩
  | .hbm, ⟨35, _⟩ => ⟨S_, .i32⟩
  | .hbm, ⟨36, _⟩ => ⟨S262144x64, .i32⟩
  | .hbm, ⟨37, _⟩ => ⟨S262144x64, .i32⟩
  | .hbm, ⟨38, _⟩ => ⟨S262144x64x1, .f32⟩
  | .hbm, ⟨39, _⟩ => ⟨S262144x64, .f32⟩
  | .hbm, ⟨40, _⟩ => ⟨S_, .f32⟩
  | .hbm, ⟨41, _⟩ => ⟨S262144x64, .f32⟩
  | .hbm, ⟨42, _⟩ => ⟨S262144x64, .i1⟩
  | .hbm, ⟨43, _⟩ => ⟨S262144x64, .i32⟩
  | .hbm, ⟨44, _⟩ => ⟨S_, .i32⟩
  | .hbm, ⟨45, _⟩ => ⟨S262144x64, .i32⟩
  | .hbm, ⟨46, _⟩ => ⟨S262144x64, .i32⟩
  | .hbm, ⟨47, _⟩ => ⟨S262144x64, .i32⟩
  | .hbm, ⟨48, _⟩ => ⟨S262144x64x1, .f32⟩
  | .hbm, ⟨49, _⟩ => ⟨S262144x64, .f32⟩
  | .hbm, ⟨50, _⟩ => ⟨S_, .f32⟩
  | .hbm, ⟨51, _⟩ => ⟨S262144x64, .f32⟩
  | .hbm, ⟨52, _⟩ => ⟨S262144x64, .i1⟩
  | .hbm, ⟨53, _⟩ => ⟨S262144x64, .i32⟩
  | .hbm, ⟨54, _⟩ => ⟨S262144x64, .i32⟩
  | .hbm, ⟨55, _⟩ => ⟨S262144x64x1, .i32⟩
  | .hbm, ⟨56, _⟩ => ⟨S1x1x8, .i32⟩
  | .hbm, ⟨57, _⟩ => ⟨S262144x64x8, .i32⟩
  | .hbm, ⟨58, _⟩ => ⟨S262144x64x8, .i32⟩
  | .hbm, ⟨59, _⟩ => ⟨S262144x64x8, .i1⟩
  | .hbm, ⟨60, _⟩ => ⟨S262144x64x8, .f32⟩
  | .hbm, ⟨61, _⟩ => ⟨S262144x8x3, .f32⟩
  | .hbm, ⟨62, _⟩ => ⟨S_, .f32⟩
  | .hbm, ⟨63, _⟩ => ⟨S262144x8, .f32⟩
  | .hbm, ⟨64, _⟩ => ⟨S_, .f32⟩
  | .hbm, ⟨65, _⟩ => ⟨S262144x8, .f32⟩
  | .hbm, ⟨66, _⟩ => ⟨S262144x8, .f32⟩
  | .hbm, ⟨67, _⟩ => ⟨S262144x8x1, .f32⟩
  | .hbm, ⟨68, _⟩ => ⟨S262144x8x3, .f32⟩
  | .hbm, ⟨69, _⟩ => ⟨S262144x8x3, .f32⟩
  | .hbm, ⟨70, _⟩ => ⟨S262144x24, .f32⟩
  | .hbm, ⟨71, _⟩ => ⟨S262144x30, .f32⟩
  | .hbm, ⟨72, _⟩ => ⟨S32x8192x30, .f32⟩
  | _, _ => ⟨S32x3x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_cst_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_cst_1 : Ref sig .tc := ⟨.hbm, 15, rfl⟩
abbrev main_call0_call0_v8 : Ref sig .tc := ⟨.hbm, 16, rfl⟩
abbrev main_call0_call0_cst_2 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_cst_3 : Ref sig .tc := ⟨.hbm, 21, rfl⟩
abbrev main_call0_call0_v12 : Ref sig .tc := ⟨.hbm, 22, rfl⟩
abbrev main_call0_call0_cst_4 : Ref sig .tc := ⟨.hbm, 23, rfl⟩
abbrev main_call0_call0_call0_v0 : Ref sig .tc := ⟨.hbm, 24, rfl⟩
abbrev main_call0_call0_call0_v1 : Ref sig .tc := ⟨.hbm, 25, rfl⟩
abbrev main_call0_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v25 : Ref sig .tc := ⟨.hbm, 60, rfl⟩
abbrev main_v26 : Ref sig .tc := ⟨.hbm, 61, rfl⟩
abbrev main_cst_4 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]

class Facts₀ : Prop where
  transposes_S32x3x8192x64_S32x8192x64x3_0_2_3_1 : S32x3x8192x64.Transposes [0, 2, 3, 1] S32x8192x64x3
  shapeCasts_S32x8192x64x3_S262144x64x3 : S32x8192x64x3.ShapeCasts S262144x64x3
  reducesTo_S262144x64x3_S262144x3_d1 : S262144x64x3.ReducesTo [1] S262144x3
  h_S_ : 0 < S_.numel
  bcast_S262144x3_S262144x1x3_0_2 : S262144x3.BroadcastsInDim S262144x1x3 (![0, 2] : Fin 2 → Fin S262144x1x3.rank)
  bcast_S_S262144x1x3 : S_.BroadcastsInDim S262144x1x3 (![] : Fin 0 → Fin S262144x1x3.rank)
  bcast_S262144x1x3_S262144x64x3_0_1_2 : S262144x1x3.BroadcastsInDim S262144x64x3 (![0, 1, 2] : Fin 3 → Fin S262144x64x3.rank)
  bcast_S_S262144x3 : S_.BroadcastsInDim S262144x3 (![] : Fin 0 → Fin S262144x3.rank)
  shapeCasts_S32x8192x3_S262144x3 : S32x8192x3.ShapeCasts S262144x3
  slices_S262144x64x3_S262144x64x1_0_0_0 : S262144x64x3.Slices ![0, 0, 0] S262144x64x1
  shapeCasts_S262144x64x1_S262144x64 : S262144x64x1.ShapeCasts S262144x64
  bcast_S_S262144x64 : S_.BroadcastsInDim S262144x64 (![] : Fin 0 → Fin S262144x64.rank)
  natLt_1_32 : 1 < 32
  slices_S262144x64x3_S262144x64x1_0_0_1 : S262144x64x3.Slices ![0, 0, 1] S262144x64x1
  slices_S262144x64x3_S262144x64x1_0_0_2 : S262144x64x3.Slices ![0, 0, 2] S262144x64x1
  bcast_S262144x64_S262144x64x1_0_1 : S262144x64.BroadcastsInDim S262144x64x1 (![0, 1] : Fin 2 → Fin S262144x64x1.rank)
  bcast_S262144x64x1_S262144x64x8_0_1_2 : S262144x64x1.BroadcastsInDim S262144x64x8 (![0, 1, 2] : Fin 3 → Fin S262144x64x8.rank)
  bcast_S1x1x8_S262144x64x8_0_1_2 : S1x1x8.BroadcastsInDim S262144x64x8 (![0, 1, 2] : Fin 3 → Fin S262144x64x8.rank)
  reducesTo_S262144x64x8_S262144x8_d1 : S262144x64x8.ReducesTo [1] S262144x8
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  bcast_S262144x8x1_S262144x8x3_0_1_2 : S262144x8x1.BroadcastsInDim S262144x8x3 (![0, 1, 2] : Fin 3 → Fin S262144x8x3.rank)
  shapeCasts_S262144x8x3_S262144x24 : S262144x8x3.ShapeCasts S262144x24
  concatenates_S262144x3_S262144x3_S262144x24_S262144x30_d1 : Shape.Concatenates [S262144x3, S262144x3, S262144x24] S262144x30 1
  shapeCasts_S262144x30_S32x8192x30 : S262144x30.ShapeCasts S32x8192x30
  dot_S262144x64x8_S262144x64x3_S262144x8x3_1_1_2_2_0_0_wf : DotDims.WF S262144x64x8 S262144x64x3 S262144x8x3 [1] [1] [2] [2] [0] [0]

variable [Facts₀]

def dot_S262144x64x8_S262144x64x3_S262144x8x3_1_1_2_2_0_0 : DotDims S262144x64x8 S262144x64x3 S262144x8x3 where
  lhsContracting := [1]
  rhsContracting := [1]
  lhsNonContracting := [2]
  rhsNonContracting := [2]
  lhsBatch := [0]
  rhsBatch := [0]
  wf := dot_S262144x64x8_S262144x64x3_S262144x8x3_1_1_2_2_0_0_wf

class Facts : Prop extends Facts₀ where

variable [Facts]
-- ==== Proof.Spec.lean ====
/-
  The mathematics both programs compute, for ONE group of 64 neighbours with three coordinates each
  (`g c k`: coordinate `c` of neighbour `k`) and the group's centre (`ctr c`), on the extended reals:

  * `std g c`: the unbiased standard deviation of coordinate `c` over the neighbours — the mean is the sum
    divided by 64, the variance the sum of squared deviations divided by 63, then the square root;
  * `oct g k`: the octant of neighbour `k`, the three sign tests `x > 0` weighted 4, 2, 1;
  * `mask g e k`: 1 if neighbour `k` lies in octant `e`, else 0; `cnt g e` the number of such neighbours,
    `msum g e c` the sum of their coordinate `c`, and `mmean g e c = msum / max(cnt, 1)` (0 for an empty octant);
  * `feat g ctr q c`: the thirty features as ten triples — triple 0 the deviations, triple 1 the centre,
    triple `e + 2` the mean of octant `e`.

  `G P C` is the whole result array [32, 8192, 30] of the points array `P` [32, 3, 8192, 64] and the centres `C`
  [32, 8192, 3]: at (b, n, f) the feature `f / 3`, coordinate `f % 3`, of group (b, n).
-/
import Idealize.ShloMosaic.PureOps.Ideal
import Idealize.ShloMosaic.Lib.ValueIdx

noncomputable section

namespace Hist

open Idealize.ShloMosaic Idealize.ShloMosaic.ValueIdx

/-- One group's points: coordinate `c` of neighbour `k`. -/
abbrev Grp := Fin 3 → Fin 64 → EReal

/-- The mean of coordinate `c` over the 64 neighbours. -/
def mean (g : Grp) (c : Fin 3) : EReal := Ideal.div (∑ k : Fin 64, g c k) (Ideal.ofBits .f32 0x42800000#32)

/-- The squared deviation of neighbour `k`'s coordinate `c` from the mean. -/
def dev2 (g : Grp) (c : Fin 3) (k : Fin 64) : EReal := (g c k - mean g c) * (g c k - mean g c)

/-- The unbiased standard deviation of coordinate `c`: the divisor is 63. -/
def std (g : Grp) (c : Fin 3) : EReal :=
  Ideal.sqrt (Ideal.div (∑ k : Fin 64, dev2 g c k) (Ideal.ofBits .f32 0x427C0000#32))

/-- The sign test `x > 0` as a 32-bit word, 1 or 0. -/
def pos (x : EReal) : BitVec 32 := (Ideal.cmp .ogt x (Ideal.ofBits .f32 0x00000000#32)).setWidth 32

/-- The octant of neighbour `k`: 4·[x > 0] + 2·[y > 0] + [z > 0]. -/
def oct (g : Grp) (k : Fin 64) : BitVec 32 :=
  IntOp.addi (IntOp.addi (IntOp.muli (pos (g 0 k)) 4#32) (IntOp.muli (pos (g 1 k)) 2#32)) (pos (g 2 k))

/-- A one-bit word as the real 0 or 1. -/
def ind (w : BitVec 1) : EReal := ((w.toNat : ℝ) : EReal)

/-- 1 if neighbour `k` is in octant `e`, else 0. -/
def mask (g : Grp) (e : BitVec 32) (k : Fin 64) : EReal := ind (IntOp.cmpi .eq (oct g k) e)

/-- How many neighbours are in octant `e`. -/
def cnt (g : Grp) (e : BitVec 32) : EReal := ∑ k : Fin 64, mask g e k

/-- The sum of coordinate `c` over the neighbours in octant `e`. -/
def msum (g : Grp) (e : BitVec 32) (c : Fin 3) : EReal := ∑ k : Fin 64, mask g e k * g c k

/-- The mean of coordinate `c` over octant `e`, the count clamped below by 1. -/
def mmean (g : Grp) (e : BitVec 32) (c : Fin 3) : EReal :=
  Ideal.div (msum g e c) (max (cnt g e) (Ideal.ofBits .f32 0x3F800000#32))

/-- The ten feature triples of a group. -/
def feat (g : Grp) (ctr : Fin 3 → EReal) (q : Fin 10) (c : Fin 3) : EReal :=
  match q with
  | ⟨0, _⟩ => std g c
  | ⟨1, _⟩ => ctr c
  | ⟨q + 2, _⟩ => mmean g (BitVec.ofNat 32 q) c

abbrev SPts : Shape := ⟨4, ![32, 3, 8192, 64]⟩
abbrev SCtr : Shape := ⟨3, ![32, 8192, 3]⟩
abbrev SFeat : Shape := ⟨3, ![32, 8192, 30]⟩

/-- Group (b, n) of the points array. -/
def grp (P : SPts.Idx → EReal) (b : Fin 32) (n : Fin 8192) : Grp := fun c k => P (ix4 b c n k)

/-- The centre of group (b, n). -/
def ctrOf (C : SCtr.Idx → EReal) (b : Fin 32) (n : Fin 8192) : Fin 3 → EReal := fun c => C (ix3 b n c)

/-- Feature `f` of group (b, n): triple `f / 3`, coordinate `f % 3`. -/
def featAt (P : SPts.Idx → EReal) (C : SCtr.Idx → EReal) (b : Fin 32) (n : Fin 8192) (f : Fin 30) : EReal :=
  feat (grp P b n) (ctrOf C b n) ⟨f.val / 3, by omega⟩ ⟨f.val % 3, by omega⟩

/-- The whole result array. -/
def G (P : SPts.Idx → EReal) (C : SCtr.Idx → EReal) : SFeat.Idx → EReal := fun i => featAt P C (i 0) (i 1) (i 2)

theorem G_ix3 (P : SPts.Idx → EReal) (C : SCtr.Idx → EReal) (b : Fin 32) (n : Fin 8192) (f : Fin 30) :
    G P C (ix3 b n f) = featAt P C b n f := rfl

end Hist

end
-- ==== Proof.KernelBlock.Layout.lean ====
/-
  The kernel's layout operations read at an index, over VARIABLE vectors of the literal shapes the body uses.

  The body works on one block of 1024 groups: the points block [1,3,1024,64] with its unit axis dropped is a
  [3,1024,64] vector `X` (coordinate, group, neighbour). Everything it computes is built from `X` by pointwise
  operations and by the layout operations read here:

  * a sum over the 64 neighbours ([3,1024,64] → [3,1024], and [1024,64] → [1024]) is the `Fin 64`-indexed sum;
  * a [3,1024] vector kept as a column [3,1024,1] and broadcast over the neighbours reads back the vector at (c, r);
  * coordinate plane `c` of `X` as a [1024,64] vector reads `X` at (c, r, k);
  * a [1024,64] vector (a [1024] vector) repeated over the three coordinates reads back the vector at (r, k) (at r);
  * the centre block [1,1024,3] with its unit axis dropped and transposed reads the block at (0, r, c).
-/
import proofs.«181731_j61392262529219_1_alg».proof.Proof.Gen.KernelIdeal.Value
import Idealize.ShloMosaic.Lib.ValueIdx
import Idealize.ShloMosaic.Lib.Pipeline.Value
import Idealize.ShloMosaic.Lib.ValueLayout
import Idealize.ShloMosaic.PureOps.Ideal.Laws
import proofs.«181731_j61392262529219_1_alg».proof.Proof.Spec

noncomputable section

namespace Cert.KernelIdeal.Block

open Cert.KernelIdeal Cert.KernelIdeal.Gen Idealize.ShloMosaic Idealize.ShloMosaic.ValueIdx

/-- The group at row `r` of a [3,1024,64] block: coordinate `c` of neighbour `k`. -/
abbrev grpOf (X : FVec Ideal S3x1024x64 .f32) (r : Fin 1024) : Hist.Grp := fun c k => X (ix3 c r k)

variable {α : Type}

/-- The points block with its leading unit axis dropped reads, at (c, r, k), the block at (0, c, r, k). -/
theorem pts_apply (P0 : S1x3x1024x64.Idx → α) (c : Fin 3) (r : Fin 1024) (k : Fin 64) :
    shapeCast S3x1024x64 P0 shapeCasts_S1x3x1024x64_S3x1024x64 (ix3 c r k) = P0 (ix4 (0 : Fin 1) c r k) :=
  shapeCast_1abc_abc_apply P0 _ c r k

/-- A sum over the last axis of a [3,1024,64] vector, read at (c, r), is the sum over k of the vector at (c, r, k). -/
theorem rowsum_apply (X : FVec Ideal S3x1024x64 .f32) (hacc : (0x00000000#32 : BitVec 32) = 0x00000000#32) (c : Fin 3) (r : Fin 1024) :
    multiReduction (F := Ideal) .add [2] S3x1024 X 0x00000000#32 reduces_S3x1024x64_S3x1024 (.inl rfl) hacc (ix2 c r)
      = ∑ k : Fin 64, X (ix3 c r k) := by
  refine (Ideal.multiReduction_add_single X 0x00000000#32 reduces_S3x1024x64_S3x1024 (.inl rfl) hacc (ix2 c r)).trans ?_
  refine Finset.sum_congr rfl fun k _ => congrArg X ?_
  funext a
  match a with
  | ⟨0, _⟩ => exact Fin.ext rfl
  | ⟨1, _⟩ => exact Fin.ext rfl
  | ⟨2, _⟩ => exact Fin.ext rfl

/-- A sum over the last axis of a [1024,64] vector, read at r, is the sum over k of the vector at (r, k). -/
theorem lanesum_apply (X : FVec Ideal S1024x64 .f32) (hacc : (0x00000000#32 : BitVec 32) = 0x00000000#32) (r : Fin 1024) :
    multiReduction (F := Ideal) .add [1] S1024 X 0x00000000#32 reduces_S1024x64_S1024 (.inl rfl) hacc (ix1 r)
      = ∑ k : Fin 64, X (ix2 r k) := by
  refine (Ideal.multiReduction_add_single X 0x00000000#32 reduces_S1024x64_S1024 (.inl rfl) hacc (ix1 r)).trans ?_
  refine Finset.sum_congr rfl fun k _ => congrArg X ?_
  funext a
  match a with
  | ⟨0, _⟩ => exact Fin.ext rfl
  | ⟨1, _⟩ => exact Fin.ext rfl

/-- A [3,1024] vector given a trailing unit axis reads, at (c, r, u), the vector at (c, r). -/
theorem col_apply (Z : S3x1024.Idx → α) (c : Fin 3) (r : Fin 1024) (u : Fin 1) :
    shapeCast S3x1024x1 Z shapeCasts_S3x1024_S3x1024x1 (ix3 c r u) = Z (ix2 c r) :=
  shapeCast_apply Z _ _ _ (by
    have hu : u.val = 0 := by omega
    rw [Shape.rowMajor_val_two, Shape.rowMajor_val_three]
    show c.val * 1024 + r.val = (c.val * 1024 + r.val) * 1 + u.val
    omega)

/-- A [3,1024,1] column broadcast along the last axis reads, at (c, r, k), the column at (c, r, 0). -/
theorem colBcast_apply (Y : S3x1024x1.Idx → α) (c : Fin 3) (r : Fin 1024) (k : Fin 64) :
    broadcastTo S3x1024x64 Y broadcasts_S3x1024x1_S3x1024x64 (ix3 c r k) = Y (ix3 c r (0 : Fin 1)) := by
  refine broadcastTo_apply Y _ (ix3 c r k) (ix3 c r (0 : Fin 1)) fun ax => ?_
  match ax with
  | ⟨0, _⟩ => rfl
  | ⟨1, _⟩ => rfl
  | ⟨2, _⟩ => rfl

/-- So a [3,1024] vector kept as a column and broadcast over the 64 lanes reads, at (c, r, k), the vector at (c, r). -/
theorem keep_apply (Z : S3x1024.Idx → α) (c : Fin 3) (r : Fin 1024) (k : Fin 64) :
    broadcastTo S3x1024x64 (shapeCast S3x1024x1 Z shapeCasts_S3x1024_S3x1024x1) broadcasts_S3x1024x1_S3x1024x64 (ix3 c r k)
      = Z (ix2 c r) :=
  (colBcast_apply _ c r k).trans (col_apply Z c r 0)

/-- Coordinate plane 0 of a [3,1024,64] vector, as a [1024,64] vector, reads at (r, k) the vector at (0, r, k). -/
theorem plane0_apply (X : S3x1024x64.Idx → α) (r : Fin 1024) (k : Fin 64) :
    shapeCast S1024x64 (extractStridedSlice S1x1024x64 ![0, 0, 0] X slices_S3x1024x64_o0_0_0_S1x1024x64)
      shapeCasts_S1x1024x64_S1024x64 (ix2 r k) = X (ix3 (0 : Fin 3) r k) := by
  refine (shapeCast_1ab_ab_apply _ _ r k).trans ?_
  refine extractStridedSlice_apply _ X _ _ _ fun a => ?_
  match a with
  | ⟨0, _⟩ => rfl
  | ⟨1, _⟩ => show r.val = 0 + r.val; omega
  | ⟨2, _⟩ => show k.val = 0 + k.val; omega

/-- Coordinate plane 1. -/
theorem plane1_apply (X : S3x1024x64.Idx → α) (r : Fin 1024) (k : Fin 64) :
    shapeCast S1024x64 (extractStridedSlice S1x1024x64 ![1, 0, 0] X slices_S3x1024x64_o1_0_0_S1x1024x64)
      shapeCasts_S1x1024x64_S1024x64 (ix2 r k) = X (ix3 (1 : Fin 3) r k) := by
  refine (shapeCast_1ab_ab_apply _ _ r k).trans ?_
  refine extractStridedSlice_apply _ X _ _ _ fun a => ?_
  match a with
  | ⟨0, _⟩ => rfl
  | ⟨1, _⟩ => show r.val = 0 + r.val; omega
  | ⟨2, _⟩ => show k.val = 0 + k.val; omega

/-- Coordinate plane 2. -/
theorem plane2_apply (X : S3x1024x64.Idx → α) (r : Fin 1024) (k : Fin 64) :
    shapeCast S1024x64 (extractStridedSlice S1x1024x64 ![2, 0, 0] X slices_S3x1024x64_o2_0_0_S1x1024x64)
      shapeCasts_S1x1024x64_S1024x64 (ix2 r k) = X (ix3 (2 : Fin 3) r k) := by
  refine (shapeCast_1ab_ab_apply _ _ r k).trans ?_
  refine extractStridedSlice_apply _ X _ _ _ fun a => ?_
  match a with
  | ⟨0, _⟩ => rfl
  | ⟨1, _⟩ => show r.val = 0 + r.val; omega
  | ⟨2, _⟩ => show k.val = 0 + k.val; omega

/-- A [1024,64] vector repeated over the three coordinates reads, at (c, r, k), the vector at (r, k). -/
theorem rep3_apply (M : S1024x64.Idx → α) (c : Fin 3) (r : Fin 1024) (k : Fin 64) :
    broadcastTo S3x1024x64 (shapeCast S1x1024x64 M shapeCasts_S1024x64_S1x1024x64) broadcasts_S1x1024x64_S3x1024x64 (ix3 c r k)
      = M (ix2 r k) := by
  refine (broadcastTo_apply _ _ (ix3 c r k) (ix3 (0 : Fin 1) r k) fun ax => ?_).trans (shapeCast_ab_1ab_apply M _ 0 r k)
  match ax with
  | ⟨0, _⟩ => rfl
  | ⟨1, _⟩ => rfl
  | ⟨2, _⟩ => rfl

/-- A [1024] vector repeated over the three coordinates reads, at (c, r), the vector at r. -/
theorem rep3row_apply (N : S1024.Idx → α) (c : Fin 3) (r : Fin 1024) :
    broadcastTo S3x1024 (shapeCast S1x1024 N shapeCasts_S1024_S1x1024) broadcasts_S1x1024_S3x1024 (ix2 c r) = N (ix1 r) :=
  (broadcastTo_1b_ab_apply _ _ c r).trans (shapeCast_a_1a_apply N _ 0 r)

/-- The centre block transposed reads, at (c, r), the block at (0, r, c). -/
theorem ctr_apply (P1 : S1x1024x3.Idx → α) (c : Fin 3) (r : Fin 1024) :
    transpose S3x1024 [1, 0] (shapeCast S1024x3 P1 shapeCasts_S1x1024x3_S1024x3) transposes_S1024x3_p1_0_S3x1024 (ix2 c r)
      = P1 (ix3 (0 : Fin 1) r c) :=
  (transpose_ix2_apply _ _ c r).trans (shapeCast_1ab_ab_apply P1 _ r c)

end Cert.KernelIdeal.Block

end
-- ==== Proof.KernelBlock.Dev.lean ====
/-
  The deviation tree of the kernel's body, read at an index.

  With `X` the [3,1024,64] block (coordinate, group, neighbour), the body sums `X` over the neighbours, keeps the sums as
  a column, divides by 64 (the mean), broadcasts the mean back over the neighbours, squares the differences, sums them
  over the neighbours, divides by 63 and takes the square root. At (c, r) this is the unbiased standard deviation of
  coordinate `c` over the 64 neighbours of group `r`: every step is pointwise except the two sums and the
  column-and-broadcast, which are read by the layout lemmas.
-/
import proofs.«181731_j61392262529219_1_alg».proof.Proof.KernelBlock.Layout

noncomputable section

namespace Cert.KernelIdeal.Block

open Cert.KernelIdeal Cert.KernelIdeal.Gen Idealize.ShloMosaic Idealize.ShloMosaic.ValueIdx

/-- The mean column the body builds: the sum over the neighbours kept as a [3,1024,1] column, divided by 64. -/
def meanCol (X : FVec Ideal S3x1024x64 .f32) : FVec Ideal S3x1024x1 .f32 :=
  divf (shapeCast S3x1024x1 (multiReduction .add [2] S3x1024 X 0x00000000#32 reduces_S3x1024x64_S3x1024 (.inl rfl) rfl) shapeCasts_S3x1024_S3x1024x1) (broadcast S3x1024x1 (Scalar.ofBits .f32 0x42800000#32))

/-- The squared deviations from the broadcast mean. -/
def sqDev (X : FVec Ideal S3x1024x64 .f32) : FVec Ideal S3x1024x64 .f32 :=
  mulf (subf X (broadcastTo S3x1024x64 (meanCol X) broadcasts_S3x1024x1_S3x1024x64)) (subf X (broadcastTo S3x1024x64 (meanCol X) broadcasts_S3x1024x1_S3x1024x64))

/-- The deviation tree: the square root of the sum of squared deviations divided by 63. -/
def devTree (X : FVec Ideal S3x1024x64 .f32) : FVec Ideal S3x1024 .f32 :=
  sqrt (divf (multiReduction .add [2] S3x1024 (sqDev X) 0x00000000#32 reduces_S3x1024x64_S3x1024 (.inl rfl) rfl) (broadcast S3x1024 (Scalar.ofBits .f32 0x427C0000#32)))

/-- The mean column at (c, r, ·) is the mean of coordinate `c` over group `r`'s neighbours. -/
theorem meanCol_apply (X : FVec Ideal S3x1024x64 .f32) (c : Fin 3) (r : Fin 1024) (u : Fin 1) :
    meanCol X (ix3 c r u) = Hist.mean (grpOf X r) c := by
  show Ideal.div (shapeCast S3x1024x1 _ shapeCasts_S3x1024_S3x1024x1 (ix3 c r u)) (Ideal.ofBits .f32 0x42800000#32) = _
  refine congrArg (fun z => Ideal.div z (Ideal.ofBits .f32 0x42800000#32)) ?_
  exact (col_apply _ c r u).trans (rowsum_apply X rfl c r)

/-- The squared deviation at (c, r, k). -/
theorem sqDev_apply (X : FVec Ideal S3x1024x64 .f32) (c : Fin 3) (r : Fin 1024) (k : Fin 64) :
    sqDev X (ix3 c r k) = Hist.dev2 (grpOf X r) c k := by
  have hm : broadcastTo S3x1024x64 (meanCol X) broadcasts_S3x1024x1_S3x1024x64 (ix3 c r k) = Hist.mean (grpOf X r) c :=
    (colBcast_apply _ c r k).trans (meanCol_apply X c r 0)
  show (X (ix3 c r k) - broadcastTo S3x1024x64 (meanCol X) broadcasts_S3x1024x1_S3x1024x64 (ix3 c r k))
      * (X (ix3 c r k) - broadcastTo S3x1024x64 (meanCol X) broadcasts_S3x1024x1_S3x1024x64 (ix3 c r k)) = _
  rw [hm]
  rfl

/-- The deviation tree at (c, r) is the unbiased standard deviation of coordinate `c` over group `r`. -/
theorem devTree_apply (X : FVec Ideal S3x1024x64 .f32) (c : Fin 3) (r : Fin 1024) :
    devTree X (ix2 c r) = Hist.std (grpOf X r) c := by
  show Ideal.sqrt (Ideal.div (multiReduction (F := Ideal) .add [2] S3x1024 (sqDev X) 0x00000000#32 reduces_S3x1024x64_S3x1024 (.inl rfl) rfl (ix2 c r))
      (Ideal.ofBits .f32 0x427C0000#32)) = _
  refine congrArg (fun z => Ideal.sqrt (Ideal.div z (Ideal.ofBits .f32 0x427C0000#32))) ?_
  refine (rowsum_apply (sqDev X) rfl c r).trans ?_
  exact Finset.sum_congr rfl fun k _ => sqDev_apply X c r k

end Cert.KernelIdeal.Block

end
-- ==== Proof.KernelBlock.Octant.lean ====
/-
  The octant-mean tree of the kernel's body, read at an index, with the octant word a variable.

  With `X` the [3,1024,64] block (coordinate, group, neighbour), the body takes the three coordinate planes of `X`,
  tests each against 0 and combines the three bits with weights 4, 2, 1 into the octant word of each (group, neighbour).
  For an octant word `e` it compares the octant words with `e`, widens the one-bit result and converts it to a float
  (the indicator, 0 or 1), multiplies the indicator, repeated over the three coordinates, into `X` and sums over the
  neighbours (the masked sum); it also sums the indicator itself over the neighbours (the count), clamps the count below
  by 1, repeats it over the three coordinates and divides. At (c, r) this is the mean of coordinate `c` over the
  neighbours of group `r` that lie in octant `e`.
-/
import proofs.«181731_j61392262529219_1_alg».proof.Proof.KernelBlock.Layout

noncomputable section

namespace Cert.KernelIdeal.Block

open Cert.KernelIdeal Cert.KernelIdeal.Gen Idealize.ShloMosaic Idealize.ShloMosaic.ValueIdx

/-- The octant words the body builds from the three coordinate planes: 4·[x > 0] + 2·[y > 0] + [z > 0]. -/
def octV (X : FVec Ideal S3x1024x64 .f32) : IVec S1024x64 32 :=
  addi (addi (muli (extui 32 (cmpf .ogt (shapeCast S1024x64 (extractStridedSlice S1x1024x64 ![0, 0, 0] X slices_S3x1024x64_o0_0_0_S1x1024x64) shapeCasts_S1x1024x64_S1024x64) (broadcast S1024x64 (Scalar.ofBits .f32 0x00000000#32))) natLt_1_32) (broadcast S1024x64 4#32)) (muli (extui 32 (cmpf .ogt (shapeCast S1024x64 (extractStridedSlice S1x1024x64 ![1, 0, 0] X slices_S3x1024x64_o1_0_0_S1x1024x64) shapeCasts_S1x1024x64_S1024x64) (broadcast S1024x64 (Scalar.ofBits .f32 0x00000000#32))) natLt_1_32) (broadcast S1024x64 2#32))) (extui 32 (cmpf .ogt (shapeCast S1024x64 (extractStridedSlice S1x1024x64 ![2, 0, 0] X slices_S3x1024x64_o2_0_0_S1x1024x64) shapeCasts_S1x1024x64_S1024x64) (broadcast S1024x64 (Scalar.ofBits .f32 0x00000000#32))) natLt_1_32)

/-- The octant word at (r, k) is the octant of neighbour `k` of group `r`. -/
theorem octV_apply (X : FVec Ideal S3x1024x64 .f32) (r : Fin 1024) (k : Fin 64) :
    octV X (ix2 r k) = Hist.oct (grpOf X r) k := by
  have h0 := plane0_apply X r k
  have h1 := plane1_apply X r k
  have h2 := plane2_apply X r k
  show IntOp.addi (IntOp.addi
        (IntOp.muli ((Ideal.cmp .ogt (shapeCast S1024x64 (extractStridedSlice S1x1024x64 ![0, 0, 0] X slices_S3x1024x64_o0_0_0_S1x1024x64) shapeCasts_S1x1024x64_S1024x64 (ix2 r k)) (Ideal.ofBits .f32 0x00000000#32)).setWidth 32) 4#32)
        (IntOp.muli ((Ideal.cmp .ogt (shapeCast S1024x64 (extractStridedSlice S1x1024x64 ![1, 0, 0] X slices_S3x1024x64_o1_0_0_S1x1024x64) shapeCasts_S1x1024x64_S1024x64 (ix2 r k)) (Ideal.ofBits .f32 0x00000000#32)).setWidth 32) 2#32))
        ((Ideal.cmp .ogt (shapeCast S1024x64 (extractStridedSlice S1x1024x64 ![2, 0, 0] X slices_S3x1024x64_o2_0_0_S1x1024x64) shapeCasts_S1x1024x64_S1024x64 (ix2 r k)) (Ideal.ofBits .f32 0x00000000#32)).setWidth 32) = _
  rw [h0, h1, h2]
  rfl

/-- A one-bit word widened to 32 bits and read as a signed integer is the real 0 or 1. -/
theorem sitofp_bit (b : BitVec 1) : FloatOps.sitofp (F := Ideal) .f32 (b.setWidth 32) = Hist.ind b := by
  show (((b.setWidth 32).toInt : ℝ) : EReal) = (((b.toNat : ℕ) : ℝ) : EReal)
  rcases BitVec.eq_zero_or_eq_one b with h | h <;> subst h
  · have h1 : (BitVec.setWidth 32 0#1).toInt = 0 := by decide
    have h2 : (0#1 : BitVec 1).toNat = 0 := by decide
    rw [h1, h2]; simp
  · have h1 : (BitVec.setWidth 32 1#1).toInt = 1 := by decide
    have h2 : (1#1 : BitVec 1).toNat = 1 := by decide
    rw [h1, h2]; simp

/-- The indicator of octant `e` as the body builds it from the octant words `w`. -/
def maskV (w : IVec S1024x64 32) (e : BitVec 32) : FVec Ideal S1024x64 .f32 :=
  sitofp .f32 (extui 32 (cmpi .eq w (broadcast S1024x64 e)) natLt_1_32)

/-- The indicator at (r, k). -/
theorem maskV_apply (w : IVec S1024x64 32) (e : BitVec 32) (r : Fin 1024) (k : Fin 64) :
    maskV w e (ix2 r k) = Hist.ind (IntOp.cmpi .eq (w (ix2 r k)) e) :=
  sitofp_bit _

/-- The clamped count: the number of neighbours in octant `e`, at least 1. -/
def cntV (w : IVec S1024x64 32) (e : BitVec 32) : FVec Ideal S1024 .f32 :=
  maximumf (multiReduction .add [1] S1024 (maskV w e) 0x00000000#32 reduces_S1024x64_S1024 (.inl rfl) rfl) (broadcast S1024 (Scalar.ofBits .f32 0x3F800000#32))

/-- The clamped count at r. -/
theorem cntV_apply (w : IVec S1024x64 32) (e : BitVec 32) (r : Fin 1024) :
    cntV w e (ix1 r) = max (∑ k : Fin 64, Hist.ind (IntOp.cmpi .eq (w (ix2 r k)) e)) (Ideal.ofBits .f32 0x3F800000#32) := by
  show max (multiReduction (F := Ideal) .add [1] S1024 (maskV w e) 0x00000000#32 reduces_S1024x64_S1024 (.inl rfl) rfl (ix1 r)) (Ideal.ofBits .f32 0x3F800000#32) = _
  refine congrArg (fun z => max z (Ideal.ofBits .f32 0x3F800000#32)) ?_
  refine (lanesum_apply (maskV w e) rfl r).trans ?_
  exact Finset.sum_congr rfl fun k _ => maskV_apply w e r k

/-- The octant-mean tree: the masked sum over the neighbours divided by the clamped count. -/
def mmeanTree (X : FVec Ideal S3x1024x64 .f32) (w : IVec S1024x64 32) (e : BitVec 32) : FVec Ideal S3x1024 .f32 :=
  divf (multiReduction .add [2] S3x1024 (mulf (broadcastTo S3x1024x64 (shapeCast S1x1024x64 (maskV w e) shapeCasts_S1024x64_S1x1024x64) broadcasts_S1x1024x64_S3x1024x64) X) 0x00000000#32 reduces_S3x1024x64_S3x1024 (.inl rfl) rfl) (broadcastTo S3x1024 (shapeCast S1x1024 (cntV w e) shapeCasts_S1024_S1x1024) broadcasts_S1x1024_S3x1024)

/-- The octant-mean tree at (c, r), the octant words being those of `X`: the mean of coordinate `c` over octant `e` of group `r`. -/
theorem mmeanTree_apply (X : FVec Ideal S3x1024x64 .f32) (e : BitVec 32) (c : Fin 3) (r : Fin 1024) :
    mmeanTree X (octV X) e (ix2 c r) = Hist.mmean (grpOf X r) e c := by
  show Ideal.div (multiReduction (F := Ideal) .add [2] S3x1024 (mulf (broadcastTo S3x1024x64 (shapeCast S1x1024x64 (maskV (octV X) e) shapeCasts_S1024x64_S1x1024x64) broadcasts_S1x1024x64_S3x1024x64) X) 0x00000000#32 reduces_S3x1024x64_S3x1024 (.inl rfl) rfl (ix2 c r))
      (broadcastTo S3x1024 (shapeCast S1x1024 (cntV (octV X) e) shapeCasts_S1024_S1x1024) broadcasts_S1x1024_S3x1024 (ix2 c r)) = _
  have hnum : multiReduction (F := Ideal) .add [2] S3x1024 (mulf (broadcastTo S3x1024x64 (shapeCast S1x1024x64 (maskV (octV X) e) shapeCasts_S1024x64_S1x1024x64) broadcasts_S1x1024x64_S3x1024x64) X) 0x00000000#32 reduces_S3x1024x64_S3x1024 (.inl rfl) rfl (ix2 c r)
      = Hist.msum (grpOf X r) e c := by
    refine (rowsum_apply _ rfl c r).trans ?_
    refine Finset.sum_congr rfl fun k _ => ?_
    show broadcastTo S3x1024x64 (shapeCast S1x1024x64 (maskV (octV X) e) shapeCasts_S1024x64_S1x1024x64) broadcasts_S1x1024x64_S3x1024x64 (ix3 c r k) * X (ix3 c r k) = _
    rw [rep3_apply, maskV_apply, octV_apply]
    rfl
  have hden : broadcastTo S3x1024 (shapeCast S1x1024 (cntV (octV X) e) shapeCasts_S1024_S1x1024) broadcasts_S1x1024_S3x1024 (ix2 c r)
      = max (Hist.cnt (grpOf X r) e) (Ideal.ofBits .f32 0x3F800000#32) := by
    refine (rep3row_apply _ c r).trans ?_
    refine (cntV_apply _ e r).trans ?_
    refine congrArg (fun z => max z (Ideal.ofBits .f32 0x3F800000#32)) ?_
    refine Finset.sum_congr rfl fun k _ => ?_
    rw [octV_apply]
    rfl
  rw [hnum, hden]
  rfl

end Cert.KernelIdeal.Block

end
-- ==== Proof.KernelBlock.lean ====
/-
  The kernel's output block read at an index.

  A grid point's [1,1024,30] output block is the concatenation, along the feature axis, of ten [3,1024] vectors, transposed:
  at (0, r, f) it reads operand `f / 3` at (f % 3, r). Operand 0 is the deviation tree, operand 1 the transposed centre
  block, operand `e + 2` the octant-mean tree at the octant word `e` (for `e = 3` and `e = 6` parts of the tree are named
  payloads of the body, which unfold to the same tree). Each operand is read by its lemma over the [3,1024,64] vector the
  body works on, and group `r` of that vector is group `r` of the points block, so the block at (0, r, f) is feature `f` of
  group `r`: triple `f / 3`, coordinate `f % 3`.
-/
import proofs.«181731_j61392262529219_1_alg».proof.Proof.KernelBlock.Dev
import proofs.«181731_j61392262529219_1_alg».proof.Proof.KernelBlock.Octant

noncomputable section

namespace Cert.KernelIdeal.Block

open Cert.KernelIdeal Cert.KernelIdeal.Gen Cert.KernelIdeal.Value Idealize.ShloMosaic Idealize.ShloMosaic.ValueIdx

/-- The points block with its unit axis dropped: the [3,1024,64] vector the body works on. -/
abbrev blk (P0 : Vec Ideal S1x3x1024x64 .f32) : FVec Ideal S3x1024x64 .f32 :=
  shapeCast S3x1024x64 P0 shapeCasts_S1x3x1024x64_S3x1024x64

/-- Group `r` of that vector is group `r` of the points block. -/
theorem grpOf_blk (P0 : Vec Ideal S1x3x1024x64 .f32) (r : Fin 1024) :
    grpOf (blk P0) r = fun c k => P0 (ix4 (0 : Fin 1) c r k) :=
  funext fun c => funext fun k => pts_apply P0 c r k

/-- The output block at (0, r, f) reads operand `f / 3` of the concatenation at (f % 3, r). -/
theorem E2_at (P0 : Vec Ideal S1x3x1024x64 .f32) (P1 : Vec Ideal S1x1024x3 .f32) (r : Fin 1024) (f : Fin 30)
    (q : Fin 10) (c : Fin 3) (hq : f.val / 3 = q.val) (hc : f.val % 3 = c.val) :
    E2 (F := Ideal) P0 P1 (ix3 (0 : Fin 1) r f) = Cat2_0 (F := Ideal) P0 P1 q (ix2 c r) := by
  have e1 : csel2_0 (ix3 (0 : Fin 1) r f) = q := Fin.ext hq
  have e2 : ix2_0 (ix3 (0 : Fin 1) r f) = ix2 c r := by
    funext a
    match a with
    | ⟨0, _⟩ => exact Fin.ext hc
    | ⟨1, _⟩ => exact Fin.ext rfl
  show Cat2_0 (F := Ideal) P0 P1 (csel2_0 (ix3 (0 : Fin 1) r f)) (ix2_0 (ix3 (0 : Fin 1) r f)) = _
  rw [e1, e2]

/-- Operand `q` of the concatenation at (c, r) is feature triple `q`, coordinate `c`, of group `r`: operand 0 is the
    deviation tree, operand 1 the transposed centre block, operand `e + 2` the octant-mean tree at the octant word `e`. -/
theorem cat_feat (P0 : Vec Ideal S1x3x1024x64 .f32) (P1 : Vec Ideal S1x1024x3 .f32) (q : Fin 10) (c : Fin 3) (r : Fin 1024) :
    Cat2_0 (F := Ideal) P0 P1 q (ix2 c r) = Hist.feat (grpOf (blk P0) r) (fun c => P1 (ix3 (0 : Fin 1) r c)) q c := by
  match q with
  | ⟨0, _⟩ => exact devTree_apply (blk P0) c r
  | ⟨1, _⟩ => exact ctr_apply P1 c r
  | ⟨2, _⟩ => exact mmeanTree_apply (blk P0) 0#32 c r
  | ⟨3, _⟩ => exact mmeanTree_apply (blk P0) 1#32 c r
  | ⟨4, _⟩ => exact mmeanTree_apply (blk P0) 2#32 c r
  | ⟨5, _⟩ => exact mmeanTree_apply (blk P0) 3#32 c r
  | ⟨6, _⟩ => exact mmeanTree_apply (blk P0) 4#32 c r
  | ⟨7, _⟩ => exact mmeanTree_apply (blk P0) 5#32 c r
  | ⟨8, _⟩ => exact mmeanTree_apply (blk P0) 6#32 c r
  | ⟨9, _⟩ => exact mmeanTree_apply (blk P0) 7#32 c r

/-- What a grid point leaves in its output block, at (0, r, f): feature `f` of group `r` of the point's blocks. -/
theorem E2_apply (P0 : Vec Ideal S1x3x1024x64 .f32) (P1 : Vec Ideal S1x1024x3 .f32) (r : Fin 1024) (f : Fin 30) :
    Cert.KernelIdeal.Value.E2 (F := Ideal) P0 P1 (ix3 (0 : Fin 1) r f)
      = Hist.feat (fun c k => P0 (ix4 (0 : Fin 1) c r k)) (fun c => P1 (ix3 (0 : Fin 1) r c)) ⟨f.val / 3, by omega⟩ ⟨f.val % 3, by omega⟩ :=
  (E2_at P0 P1 r f ⟨f.val / 3, by omega⟩ ⟨f.val % 3, by omega⟩ rfl rfl).trans
    ((cat_feat P0 P1 _ _ r).trans
      (congrArg (fun g => Hist.feat g (fun c => P1 (ix3 (0 : Fin 1) r c)) ⟨f.val / 3, by omega⟩ ⟨f.val % 3, by omega⟩)
        (grpOf_blk P0 r)))

end Cert.KernelIdeal.Block

end
-- ==== Proof.KernelArray.lean ====
/-
  From blocks to the whole array. The grid has 32 × 8 points; point (b, j) reads the points block
  [b, all three coordinates, rows 1024·j … 1024·j + 1023, all 64 neighbours] and the centre block
  [b, the same rows, all three coordinates], and writes the feature block [b, the same rows, all 30 features].
  Row `r` of a block is group (b, 1024·j + r) of the arrays, so what a point writes back is the block of the ONE
  whole-array function `Hist.G` of the two argument arrays; the 256 blocks tile the result array (the block that
  holds row `n` of batch `b` is point (b, n / 1024)), hence the array ends holding `Hist.G`.
-/
import proofs.«181731_j61392262529219_1_alg».proof.Proof.Gen.KernelIdeal.Value
import proofs.«181731_j61392262529219_1_alg».proof.Proof.Spec
import proofs.«181731_j61392262529219_1_alg».proof.Proof.KernelBlock
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The three index maps, decided over the 256 points: the points block and the centre block sit at the feature
    block's batch and row-block, every other block coordinate is zero, and the two moving coordinates stay in range. -/
theorem maps_agree : ∀ t : Fin cfg0.N,
    win0_0.index t (0 : Fin 4) = win0_2.index t (0 : Fin 3)
    ∧ win0_0.index t (1 : Fin 4) = 0
    ∧ win0_0.index t (2 : Fin 4) = win0_2.index t (1 : Fin 3)
    ∧ win0_0.index t (3 : Fin 4) = 0
    ∧ win0_1.index t (0 : Fin 3) = win0_2.index t (0 : Fin 3)
    ∧ win0_1.index t (1 : Fin 3) = win0_2.index t (1 : Fin 3)
    ∧ win0_1.index t (2 : Fin 3) = 0
    ∧ win0_2.index t (2 : Fin 3) = 0
    ∧ win0_2.index t (0 : Fin 3) ≤ 31 ∧ win0_2.index t (1 : Fin 3) ≤ 7 :=
  (by decide +kernel : ∀ t : Fin grid0.N, _)

/-- Every (batch, row-block) pair is some point's feature block. -/
theorem every_block : ∀ (q0 : Fin 32) (q1 : Fin 8), ∃ t : Fin cfg0.N, win0_2.index t = ![q0.val, q1.val, 0] :=
  (by decide +kernel : ∀ (q0 : Fin 32) (q1 : Fin 8), ∃ t : Fin grid0.N, win0_2.index t = ![q0.val, q1.val, 0])

/-- The points block at a point whose feature block is (b, j): its entry (0, c, r, k) is the array's (b, c, 1024·j + r, k). -/
theorem pts_read (c : Dev nD) (t : Fin cfg0.N) (b : Fin 32) (n : Fin 8192) (j : Nat)
    (hb : win0_2.index t (0 : Fin 3) = b.val) (hj : win0_2.index t (1 : Fin 3) = j)
    (cc : Fin 3) (r : Fin 1024) (k : Fin 64) (hn : n.val = j * 1024 + r.val) :
    iblk m c 0 t (ix4 (0 : Fin 1) cc r k) = V m c main_arg0 (ix4 b cc n k) := by
  obtain ⟨e0, e1, e2, e3, -⟩ := maps_agree t
  show V m c main_arg0 (((cfg0.win 0).blk t).view.emb (ix4 (0 : Fin 1) cc r k)) = V m c main_arg0 _
  refine congrArg _ ?_
  funext a; apply Fin.ext
  match a with
  | ⟨0, _⟩ => show win0_0.index t (0 : Fin 4) * 1 + 1 * 0 = b.val; omega
  | ⟨1, _⟩ => show win0_0.index t (1 : Fin 4) * 3 + 1 * cc.val = cc.val; omega
  | ⟨2, _⟩ => show win0_0.index t (2 : Fin 4) * 1024 + 1 * r.val = n.val; omega
  | ⟨3, _⟩ => show win0_0.index t (3 : Fin 4) * 64 + 1 * k.val = k.val; omega

/-- The centre block likewise: its entry (0, r, c) is the array's (b, 1024·j + r, c). -/
theorem ctr_read (c : Dev nD) (t : Fin cfg0.N) (b : Fin 32) (n : Fin 8192) (j : Nat)
    (hb : win0_2.index t (0 : Fin 3) = b.val) (hj : win0_2.index t (1 : Fin 3) = j)
    (r : Fin 1024) (cc : Fin 3) (hn : n.val = j * 1024 + r.val) :
    iblk m c 1 t (ix3 (0 : Fin 1) r cc) = V m c main_arg1 (ix3 b n cc) := by
  obtain ⟨-, -, -, -, e4, e5, e6, -⟩ := maps_agree t
  show V m c main_arg1 (((cfg0.win 1).blk t).view.emb (ix3 (0 : Fin 1) r cc)) = V m c main_arg1 _
  refine congrArg _ ?_
  funext a; apply Fin.ext
  match a with
  | ⟨0, _⟩ => show win0_1.index t (0 : Fin 3) * 1 + 1 * 0 = b.val; omega
  | ⟨1, _⟩ => show win0_1.index t (1 : Fin 3) * 1024 + 1 * r.val = n.val; omega
  | ⟨2, _⟩ => show win0_1.index t (2 : Fin 3) * 3 + 1 * cc.val = cc.val; omega

/-- The feature block's entry (0, r, f) sits at the array's (b, 1024·j + r, f). -/
theorem feat_emb (t : Fin cfg0.N) (b : Fin 32) (n : Fin 8192) (j : Nat)
    (hb : win0_2.index t (0 : Fin 3) = b.val) (hj : win0_2.index t (1 : Fin 3) = j)
    (r : Fin 1024) (f : Fin 30) (hn : n.val = j * 1024 + r.val) :
    ((cfg0.win 2).blk t).view.emb (ix3 (0 : Fin 1) r f) = ix3 b n f := by
  obtain ⟨-, -, -, -, -, -, -, e7, -⟩ := maps_agree t
  funext a; apply Fin.ext
  match a with
  | ⟨0, _⟩ => show win0_2.index t (0 : Fin 3) * 1 + 1 * 0 = b.val; omega
  | ⟨1, _⟩ => show win0_2.index t (1 : Fin 3) * 1024 + 1 * r.val = n.val; omega
  | ⟨2, _⟩ => show win0_2.index t (2 : Fin 3) * 30 + 1 * f.val = f.val; omega

/-- What a point writes back is its block of `Hist.G` of the two argument arrays. -/
theorem flushed_eq (c : Dev nD) (t : Fin cfg0.N) :
    (dats m 0 c).flushed 2 t
      = ((cfg0.win 2).blk t).view.read (Elt Ideal) (Hist.G (V m c main_arg0) (V m c main_arg1)) := by
  obtain ⟨-, -, -, -, -, -, -, -, e8, e9⟩ := maps_agree t
  rw [Value.flushed2]
  unfold out0_2
  simp only [View.ld_unit_zero (S := S1x3x1024x64) zero4, View.ld_unit_zero (S := S1x1024x3) zero3]
  funext y
  obtain ⟨y0, r, f, rfl⟩ : ∃ (y0 : Fin 1) (r : Fin 1024) (f : Fin 30), y = ix3 y0 r f := ⟨y 0, y 1, y 2, eq_ix3 y⟩
  obtain rfl : y0 = 0 := Subsingleton.elim _ _
  refine (Value.canon2_eq (F := Ideal) (iblk m c 0 t) (iblk m c 1 t) (ix3 (0 : Fin 1) r f)).trans ?_
  refine (Block.E2_apply (iblk m c 0 t) (iblk m c 1 t) r f).trans ?_
  show _ = Hist.G (V m c main_arg0) (V m c main_arg1) (((cfg0.win 2).blk t).view.emb (ix3 (0 : Fin 1) r f))
  rw [feat_emb t ⟨win0_2.index t (0 : Fin 3), by omega⟩ ⟨win0_2.index t (1 : Fin 3) * 1024 + r.val, by omega⟩
    (win0_2.index t (1 : Fin 3)) rfl rfl r f rfl, Hist.G_ix3]
  unfold Hist.featAt
  refine congrArg₂ (fun g z => Hist.feat g z _ _) ?_ ?_
  · funext cc k
    exact pts_read m c t _ _ _ rfl rfl cc r k rfl
  · funext cc
    exact ctr_read m c t _ _ _ rfl rfl r cc rfl

/-- An index of the result array is in a point's block iff each coordinate is in the block's range on its axis. -/
theorem mem_blk (t : Fin cfg0.N) (i : S32x8192x30.Idx) :
    i ∈ ((cfg0.win 2).blk t).view.set ↔ ∀ a : Fin 3, win0_2.index t a * S1x1024x30.size a ≤ (i a).val ∧ (i a).val < win0_2.index t a * S1x1024x30.size a + S1x1024x30.size a := by
  show i ∈ ((View.whole main_v0).slice (win0_2.rect t)).set ↔ _
  rw [View.set_slice_whole, Rect.mem_set_unit]
  exact Iff.rfl

/-- The blocks tile the result array: (b, n, f) is in the block of point (b, n / 1024). -/
theorem cover (i : S32x8192x30.Idx) :
    ∃ t : Fin cfg0.N, (cfg0.win 2).flush t = true ∧ i ∈ ((cfg0.win 2).blk t).view.set := by
  have hi0 : (i 0).val < 32 := (i 0).isLt
  have hi1 : (i 1).val < 8192 := (i 1).isLt
  have hi2 : (i 2).val < 30 := (i 2).isLt
  obtain ⟨t, ht⟩ := every_block ⟨(i 0).val, by omega⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 30 ≤ (i 2).val ∧ (i 2).val < win0_2.index t (2 : Fin 3) * 30 + 30; omega

/-- The result array after the run is `Hist.G` of the argument arrays. -/
theorem final (c : Dev nD) :
    (dats m 0 c).arrAt 2 cfg0.N
      = Hist.G (m ((c : Thread nD τ).loc main_arg0)) (m ((c : Thread nD τ).loc main_arg1)) :=
  (dats m 0 c).arrAt_eq_of_cover 2 (Hist.G (V m c main_arg0) (V m c main_arg1)) (fun t _ => flushed_eq m c t) cover

/-- The kernel's run: the result array ends at `Hist.G` of the arguments, the arguments unchanged. -/
theorem run : θ_run defs (onTc (τ := τ) (main (F := Ideal))) ⟨m, fun _ => 0, ρ⟩ fun r => ∀ c : Dev nD,
      r.2.mem ((c : Thread nD τ).loc main_v0)
        = Hist.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefTerm.lean ====
/-
  What the reference computes, as ONE term of its two argument arrays, stage by stage in the order of its operations:
  the points regrouped as [groups, neighbours, coordinates] (`X`), the unbiased deviation over the neighbours
  (`sumK`, `meanB`, `dev2`, `ddof`, `var`, `std`), the centres regrouped (`ctr`), the three coordinate planes and the
  octant word (`x0` `x1` `x2`, `posI`, `oct`), the octant indicator (`onehot`), the per-octant sums, counts and means
  (`sums`, `counts`, `means`), and the thirty features joined and regrouped as [32, 8192, 30] (`refOut`).
-/
import proofs.«181731_j61392262529219_1_alg».proof.ReferenceIdeal
import proofs.«181731_j61392262529219_1_alg».proof.Proof.Gen.ReferenceIdeal

noncomputable section

namespace Cert.ReferenceIdeal.Term

open Cert.ReferenceIdeal Cert.ReferenceIdeal.Gen Idealize.ShloMosaic

variable {F : FTy → Type} [FloatOps F]

/-- The points as [262144 groups, 64 neighbours, 3 coordinates]: group `8192·b + n`. -/
def X (a0 : FVec F S32x3x8192x64 .f32) : FVec F S262144x64x3 .f32 :=
  shapeCast S262144x64x3 (transpose S32x8192x64x3 [0, 2, 3, 1] a0 transposes_S32x3x8192x64_S32x8192x64x3_0_2_3_1)
    shapeCasts_S32x8192x64x3_S262144x64x3

/-- The sum over the neighbours, from the zero word. -/
def sumK (x : FVec F S262144x64x3 .f32) : FVec F S262144x3 .f32 :=
  Host.reduceAdd x (constant S_ .f32 0x00000000#32) reducesTo_S262144x64x3_S262144x3_d1 h_S_

/-- The mean over the neighbours (the sum divided by 64), repeated along the neighbours. -/
def meanB (x : FVec F S262144x64x3 .f32) : FVec F S262144x64x3 .f32 :=
  broadcastInDim S262144x64x3 ![0, 1, 2] bcast_S262144x1x3_S262144x64x3_0_1_2
    (Host.divf (broadcastInDim S262144x1x3 ![0, 2] bcast_S262144x3_S262144x1x3_0_2 (sumK x))
      (broadcastInDim S262144x1x3 ![] bcast_S_S262144x1x3 (constant S_ .f32 0x42800000#32)))

/-- The squared deviations from the mean. -/
def dev2 (x : FVec F S262144x64x3 .f32) : FVec F S262144x64x3 .f32 :=
  mulf (subf x (meanB x)) (subf x (meanB x))

/-- The variance's divisor: 64 minus the one degree of freedom, computed. -/
def ddof : FVec F S_ .f32 := subf (constant S_ .f32 0x42800000#32) (sitofp .f32 (constantI S_ 32 1#32))

/-- The unbiased variance: the quotient where the divisor is positive (it is), a filler otherwise. -/
def var (x : FVec F S262144x64x3 .f32) : FVec F S262144x3 .f32 :=
  select (broadcastInDim S262144x3 ![] bcast_S_S262144x3 (cmpf .ogt (ddof (F := F)) (constant S_ .f32 0x00000000#32)))
    (Host.divf (Host.reduceAdd (dev2 x) (constant S_ .f32 0x00000000#32) reducesTo_S262144x64x3_S262144x3_d1 h_S_)
      (broadcastInDim S262144x3 ![] bcast_S_S262144x3 (ddof (F := F))))
    (broadcastInDim S262144x3 ![] bcast_S_S262144x3 (id (constant S_ .f32 0x7FC00000#32)))

/-- The standard deviation. -/
def std (x : FVec F S262144x64x3 .f32) : FVec F S262144x3 .f32 := Host.sqrt (var x)

/-- The centres as [262144 groups, 3]. -/
def ctr (a1 : FVec F S32x8192x3 .f32) : FVec F S262144x3 .f32 := shapeCast S262144x3 a1 shapeCasts_S32x8192x3_S262144x3

/-- Coordinate 0 of every neighbour, as [groups, neighbours]. -/
def x0 (x : FVec F S262144x64x3 .f32) : FVec F S262144x64 .f32 :=
  shapeCast S262144x64 (extractStridedSlice S262144x64x1 ![0, 0, 0] x slices_S262144x64x3_S262144x64x1_0_0_0) shapeCasts_S262144x64x1_S262144x64
/-- Coordinate 1. -/
def x1 (x : FVec F S262144x64x3 .f32) : FVec F S262144x64 .f32 :=
  shapeCast S262144x64 (extractStridedSlice S262144x64x1 ![0, 0, 1] x slices_S262144x64x3_S262144x64x1_0_0_1) shapeCasts_S262144x64x1_S262144x64
/-- Coordinate 2. -/
def x2 (x : FVec F S262144x64x3 .f32) : FVec F S262144x64 .f32 :=
  shapeCast S262144x64 (extractStridedSlice S262144x64x1 ![0, 0, 2] x slices_S262144x64x3_S262144x64x1_0_0_2) shapeCasts_S262144x64x1_S262144x64

/-- The sign test `v > 0` as a 32-bit word. -/
def posI (v : FVec F S262144x64 .f32) : IVec S262144x64 32 :=
  extui 32 (cmpf .ogt v (broadcastInDim S262144x64 ![] bcast_S_S262144x64 (constant S_ .f32 0x00000000#32))) natLt_1_32

/-- The octant word of every neighbour. -/
def oct (x : FVec F S262144x64x3 .f32) : IVec S262144x64 32 :=
  addi (addi (muli (posI (x0 x)) (broadcastInDim S262144x64 ![] bcast_S_S262144x64 (constantI S_ 32 4#32)))
      (muli (posI (x1 x)) (broadcastInDim S262144x64 ![] bcast_S_S262144x64 (constantI S_ 32 2#32))))
    (posI (x2 x))

/-- The octant indicator [groups, neighbours, 8]. -/
def onehot (x : FVec F S262144x64x3 .f32) : FVec F S262144x64x8 .f32 :=
  uitofp .f32 (cmpi .eq
    (broadcastInDim S262144x64x8 ![0, 1, 2] bcast_S262144x64x1_S262144x64x8_0_1_2
      (broadcastInDim S262144x64x1 ![0, 1] bcast_S262144x64_S262144x64x1_0_1 (oct x)))
    (broadcastInDim S262144x64x8 ![0, 1, 2] bcast_S1x1x8_S262144x64x8_0_1_2 (iotaInDim S1x1x8 32 2)))

/-- The per-octant coordinate sums [groups, 8, 3]: the indicator contracted with the points over the neighbours. -/
def sums (x : FVec F S262144x64x3 .f32) : FVec F S262144x8x3 .f32 :=
  Host.dotGeneral dot_S262144x64x8_S262144x64x3_S262144x8x3_1_1_2_2_0_0 none (onehot x) x

/-- The per-octant counts [groups, 8]. -/
def counts (x : FVec F S262144x64x3 .f32) : FVec F S262144x8 .f32 :=
  Host.reduceAdd (onehot x) (constant S_ .f32 0x00000000#32) reducesTo_S262144x64x8_S262144x8_d1 h_S_

/-- The per-octant means: the sums over the counts clamped below by 1. -/
def means (x : FVec F S262144x64x3 .f32) : FVec F S262144x8x3 .f32 :=
  Host.divf (sums x)
    (broadcastInDim S262144x8x3 ![0, 1, 2] bcast_S262144x8x1_S262144x8x3_0_1_2
      (broadcastInDim S262144x8x1 ![0, 1] bcast_S262144x8_S262144x8x1_0_1
        (maximumf (counts x) (broadcastInDim S262144x8 ![] bcast_S_S262144x8 (constant S_ .f32 0x3F800000#32)))))

/-- The reference's result: deviations, centre and the 24 octant means joined along the features, as [32, 8192, 30]. -/
def refOut (a0 : FVec F S32x3x8192x64 .f32) (a1 : FVec F S32x8192x3 .f32) : FVec F S32x8192x30 .f32 :=
  shapeCast S32x8192x30
    (concatenate S262144x30 1
      [⟨S262144x3, std (X a0)⟩, ⟨S262144x3, ctr a1⟩, ⟨S262144x24, shapeCast S262144x24 (means (X a0)) shapeCasts_S262144x8x3_S262144x24⟩]
      concatenates_S262144x3_S262144x3_S262144x24_S262144x30_d1)
    shapeCasts_S262144x30_S32x8192x30

end Cert.ReferenceIdeal.Term

end
-- ==== Proof.RefRunOps.lean ====
/-
  The reference program's @main as ONE straight line of its 71 host operations: @main's own forty-two, and at
  the two calls the bodies of the module-local functions written out over each call's buffers — the standard
  deviation (its variance, and inside that the selection between the quotient and the filler) between the third
  and the fourth operation of @main, the octant indicator before the contraction. The order is the program's.
-/
import proofs.«181731_j61392262529219_1_alg».proof.ReferenceIdeal
import proofs.«181731_j61392262529219_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: operations 4–25 are the variance's (the mean over the
    neighbours, the squared deviations, their sum over the divisor 64 − 1, and the selection's three), 26 the square
    root, 54–59 the octant indicator's. -/
abbrev ops : List (HloOp τ sig (Elt F)) :=
  [ StableHlo.unary main_arg0 main_v0 ((transpose S32x8192x64x3 [0, 2, 3, 1] · transposes_S32x3x8192x64_S32x8192x64x3_0_2_3_1) : (⟨S32x3x8192x64, .f32⟩ : BufTy).Contents (Elt F) → (⟨S32x8192x64x3, .f32⟩ : BufTy).Contents (Elt F)),
    StableHlo.reshape main_v0 main_v1 rfl shapeCasts_S32x8192x64x3_S262144x64x3,
    StableHlo.nullary main_c (constantI S_ 32 1#32),
    StableHlo.TRef.nullary main_call0.call0.cst (constant S_ .f32 0x00000000#32),
    StableHlo.TRef.binary (TRef.of main_v1 : TRef sig ⟨S262144x64x3, .f32⟩) main_call0.call0.cst main_call0.call0.v0 (fun x v => Host.reduceAdd x v reducesTo_S262144x64x3_S262144x3_d1 h_S_),
    StableHlo.TRef.unary main_call0.call0.v0 main_call0.call0.v1 (broadcastInDim S262144x1x3 ![0, 2] bcast_S262144x3_S262144x1x3_0_2),
    StableHlo.TRef.nullary main_call0.call0.cst_0 (constant S_ .f32 0x42800000#32),
    StableHlo.TRef.unary main_call0.call0.cst_0 main_call0.call0.v2 (broadcastInDim S262144x1x3 ![] bcast_S_S262144x1x3),
    StableHlo.TRef.binary main_call0.call0.v1 main_call0.call0.v2 main_call0.call0.v3 Host.divf,
    StableHlo.TRef.unary main_call0.call0.v3 main_call0.call0.v4 (broadcastInDim S262144x64x3 ![0, 1, 2] bcast_S262144x1x3_S262144x64x3_0_1_2),
    StableHlo.TRef.binary (TRef.of main_v1 : TRef sig ⟨S262144x64x3, .f32⟩) main_call0.call0.v4 main_call0.call0.v5 subf,
    StableHlo.TRef.binary main_call0.call0.v5 main_call0.call0.v5 main_call0.call0.v6 mulf,
    StableHlo.TRef.unary (TRef.of main_c : TRef sig ⟨S_, .i32⟩) main_call0.call0.v7 (sitofp .f32),
    StableHlo.TRef.nullary main_call0.call0.cst_1 (constant S_ .f32 0x42800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S262144x64x3_S262144x3_d1 h_S_),
    StableHlo.TRef.unary main_call0.call0.v8 main_call0.call0.v10 (broadcastInDim S262144x3 ![] bcast_S_S262144x3),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S262144x3 ![] bcast_S_S262144x3),
    StableHlo.TRef.ternary main_call0.call0.v12 main_call0.call0.v11 main_call0.call0.call0.v1 main_call0.call0.call0.v2 (fun p a b => select (broadcastInDim S262144x3 ![] bcast_S_S262144x3 p) a b),
    StableHlo.TRef.unary main_call0.call0.call0.v2 main_call0.v1 Host.sqrt,
    StableHlo.reshape main_arg1 main_v3 rfl shapeCasts_S32x8192x3_S262144x3,
    StableHlo.unary main_v1 main_v4 ((extractStridedSlice S262144x64x1 ![0, 0, 0] · slices_S262144x64x3_S262144x64x1_0_0_0) : (⟨S262144x64x3, .f32⟩ : BufTy).Contents (Elt F) → (⟨S262144x64x1, .f32⟩ : BufTy).Contents (Elt F)),
    StableHlo.reshape main_v4 main_v5 rfl shapeCasts_S262144x64x1_S262144x64,
    StableHlo.nullary main_cst (constant S_ .f32 0x00000000#32),
    StableHlo.unary main_cst main_v6 (broadcastInDim S262144x64 ![] bcast_S_S262144x64 : (⟨S_, .f32⟩ : BufTy).Contents (Elt F) → (⟨S262144x64, .f32⟩ : BufTy).Contents (Elt F)),
    StableHlo.binary main_v5 main_v6 main_v7 (cmpf .ogt : (⟨S262144x64, .f32⟩ : BufTy).Contents (Elt F) → (⟨S262144x64, .f32⟩ : BufTy).Contents (Elt F) → (⟨S262144x64, .i1⟩ : BufTy).Contents (Elt F)),
    StableHlo.unary main_v7 main_v8 ((extui 32 · natLt_1_32) : (⟨S262144x64, .i1⟩ : BufTy).Contents (Elt F) → (⟨S262144x64, .i32⟩ : BufTy).Contents (Elt F)),
    StableHlo.nullary main_c_0 (constantI S_ 32 4#32),
    StableHlo.unary main_c_0 main_v9 (broadcastInDim S262144x64 ![] bcast_S_S262144x64 : (⟨S_, .i32⟩ : BufTy).Contents (Elt F) → (⟨S262144x64, .i32⟩ : BufTy).Contents (Elt F)),
    StableHlo.binary main_v8 main_v9 main_v10 (muli : (⟨S262144x64, .i32⟩ : BufTy).Contents (Elt F) → (⟨S262144x64, .i32⟩ : BufTy).Contents (Elt F) → (⟨S262144x64, .i32⟩ : BufTy).Contents (Elt F)),
    StableHlo.unary main_v1 main_v11 ((extractStridedSlice S262144x64x1 ![0, 0, 1] · slices_S262144x64x3_S262144x64x1_0_0_1) : (⟨S262144x64x3, .f32⟩ : BufTy).Contents (Elt F) → (⟨S262144x64x1, .f32⟩ : BufTy).Contents (Elt F)),
    StableHlo.reshape main_v11 main_v12 rfl shapeCasts_S262144x64x1_S262144x64,
    StableHlo.nullary main_cst_1 (constant S_ .f32 0x00000000#32),
    StableHlo.unary main_cst_1 main_v13 (broadcastInDim S262144x64 ![] bcast_S_S262144x64 : (⟨S_, .f32⟩ : BufTy).Contents (Elt F) → (⟨S262144x64, .f32⟩ : BufTy).Contents (Elt F)),
    StableHlo.binary main_v12 main_v13 main_v14 (cmpf .ogt : (⟨S262144x64, .f32⟩ : BufTy).Contents (Elt F) → (⟨S262144x64, .f32⟩ : BufTy).Contents (Elt F) → (⟨S262144x64, .i1⟩ : BufTy).Contents (Elt F)),
    StableHlo.unary main_v14 main_v15 ((extui 32 · natLt_1_32) : (⟨S262144x64, .i1⟩ : BufTy).Contents (Elt F) → (⟨S262144x64, .i32⟩ : BufTy).Contents (Elt F)),
    StableHlo.nullary main_c_2 (constantI S_ 32 2#32),
    StableHlo.unary main_c_2 main_v16 (broadcastInDim S262144x64 ![] bcast_S_S262144x64 : (⟨S_, .i32⟩ : BufTy).Contents (Elt F) → (⟨S262144x64, .i32⟩ : BufTy).Contents (Elt F)),
    StableHlo.binary main_v15 main_v16 main_v17 (muli : (⟨S262144x64, .i32⟩ : BufTy).Contents (Elt F) → (⟨S262144x64, .i32⟩ : BufTy).Contents (Elt F) → (⟨S262144x64, .i32⟩ : BufTy).Contents (Elt F)),
    StableHlo.binary main_v10 main_v17 main_v18 (addi : (⟨S262144x64, .i32⟩ : BufTy).Contents (Elt F) → (⟨S262144x64, .i32⟩ : BufTy).Contents (Elt F) → (⟨S262144x64, .i32⟩ : BufTy).Contents (Elt F)),
    StableHlo.unary main_v1 main_v19 ((extractStridedSlice S262144x64x1 ![0, 0, 2] · slices_S262144x64x3_S262144x64x1_0_0_2) : (⟨S262144x64x3, .f32⟩ : BufTy).Contents (Elt F) → (⟨S262144x64x1, .f32⟩ : BufTy).Contents (Elt F)),
    StableHlo.reshape main_v19 main_v20 rfl shapeCasts_S262144x64x1_S262144x64,
    StableHlo.nullary main_cst_3 (constant S_ .f32 0x00000000#32),
    StableHlo.unary main_cst_3 main_v21 (broadcastInDim S262144x64 ![] bcast_S_S262144x64 : (⟨S_, .f32⟩ : BufTy).Contents (Elt F) → (⟨S262144x64, .f32⟩ : BufTy).Contents (Elt F)),
    StableHlo.binary main_v20 main_v21 main_v22 (cmpf .ogt : (⟨S262144x64, .f32⟩ : BufTy).Contents (Elt F) → (⟨S262144x64, .f32⟩ : BufTy).Contents (Elt F) → (⟨S262144x64, .i1⟩ : BufTy).Contents (Elt F)),
    StableHlo.unary main_v22 main_v23 ((extui 32 · natLt_1_32) : (⟨S262144x64, .i1⟩ : BufTy).Contents (Elt F) → (⟨S262144x64, .i32⟩ : BufTy).Contents (Elt F)),
    StableHlo.binary main_v18 main_v23 main_v24 (addi : (⟨S262144x64, .i32⟩ : BufTy).Contents (Elt F) → (⟨S262144x64, .i32⟩ : BufTy).Contents (Elt F) → (⟨S262144x64, .i32⟩ : BufTy).Contents (Elt F)),
    StableHlo.TRef.unary (TRef.of main_v24 : TRef sig ⟨S262144x64, .i32⟩) main_call1.v0 (broadcastInDim S262144x64x1 ![0, 1] bcast_S262144x64_S262144x64x1_0_1),
    StableHlo.TRef.nullary main_call1.v1 (iotaInDim S1x1x8 32 2),
    StableHlo.TRef.unary main_call1.v0 main_call1.v2 (broadcastInDim S262144x64x8 ![0, 1, 2] bcast_S262144x64x1_S262144x64x8_0_1_2),
    StableHlo.TRef.unary main_call1.v1 main_call1.v3 (broadcastInDim S262144x64x8 ![0, 1, 2] bcast_S1x1x8_S262144x64x8_0_1_2),
    StableHlo.TRef.binary main_call1.v2 main_call1.v3 main_call1.v4 (cmpi .eq),
    StableHlo.TRef.unary main_call1.v4 main_call1.v5 (uitofp .f32),
    StableHlo.binary main_v25 main_v1 main_v26 ((fun l r => Host.dotGeneral dot_S262144x64x8_S262144x64x3_S262144x8x3_1_1_2_2_0_0 none l r) : (⟨S262144x64x8, .f32⟩ : BufTy).Contents (Elt F) → (⟨S262144x64x3, .f32⟩ : BufTy).Contents (Elt F) → (⟨S262144x8x3, .f32⟩ : BufTy).Contents (Elt F)),
    StableHlo.nullary main_cst_4 (constant S_ .f32 0x00000000#32),
    StableHlo.binary main_v25 main_cst_4 main_v27 ((fun x v => Host.reduceAdd x v reducesTo_S262144x64x8_S262144x8_d1 h_S_) : (⟨S262144x64x8, .f32⟩ : BufTy).Contents (Elt F) → (⟨S_, .f32⟩ : BufTy).Contents (Elt F) → (⟨S262144x8, .f32⟩ : BufTy).Contents (Elt F)),
    StableHlo.nullary main_cst_5 (constant S_ .f32 0x3F800000#32),
    StableHlo.unary main_cst_5 main_v28 (broadcastInDim S262144x8 ![] bcast_S_S262144x8 : (⟨S_, .f32⟩ : BufTy).Contents (Elt F) → (⟨S262144x8, .f32⟩ : BufTy).Contents (Elt F)),
    StableHlo.binary main_v27 main_v28 main_v29 (maximumf : (⟨S262144x8, .f32⟩ : BufTy).Contents (Elt F) → (⟨S262144x8, .f32⟩ : BufTy).Contents (Elt F) → (⟨S262144x8, .f32⟩ : BufTy).Contents (Elt F)),
    StableHlo.unary main_v29 main_v30 (broadcastInDim S262144x8x1 ![0, 1] bcast_S262144x8_S262144x8x1_0_1 : (⟨S262144x8, .f32⟩ : BufTy).Contents (Elt F) → (⟨S262144x8x1, .f32⟩ : BufTy).Contents (Elt F)),
    StableHlo.unary main_v30 main_v31 (broadcastInDim S262144x8x3 ![0, 1, 2] bcast_S262144x8x1_S262144x8x3_0_1_2 : (⟨S262144x8x1, .f32⟩ : BufTy).Contents (Elt F) → (⟨S262144x8x3, .f32⟩ : BufTy).Contents (Elt F)),
    StableHlo.binary main_v26 main_v31 main_v32 (Host.divf : (⟨S262144x8x3, .f32⟩ : BufTy).Contents (Elt F) → (⟨S262144x8x3, .f32⟩ : BufTy).Contents (Elt F) → (⟨S262144x8x3, .f32⟩ : BufTy).Contents (Elt F)),
    StableHlo.reshape main_v32 main_v33 rfl shapeCasts_S262144x8x3_S262144x24,
    StableHlo.nary ![main_v2, main_v3, main_v33] main_v34 (fun u => concatenate S262144x30 1 [⟨S262144x3, u 0⟩, ⟨S262144x3, u 1⟩, ⟨S262144x24, u 2⟩] concatenates_S262144x3_S262144x3_S262144x24_S262144x30_d1),
    StableHlo.reshape main_v34 main_v35 rfl shapeCasts_S262144x30_S32x8192x30 ]

/-- @main is that straight line: a program is a finite tree of requests and sequencing grafts a continuation on its
    leaves by structural recursion, so with the functions' definitions unfolded at their calls both sides compute to
    the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., reshape_bufs_sub .., unary_bufs_sub .., reshape_bufs_sub .., nullary_bufs_sub ..,
    unary_bufs_sub .., binary_bufs_sub .., unary_bufs_sub .., nullary_bufs_sub .., unary_bufs_sub .., binary_bufs_sub ..,
    unary_bufs_sub .., reshape_bufs_sub .., nullary_bufs_sub .., unary_bufs_sub .., binary_bufs_sub .., unary_bufs_sub ..,
    nullary_bufs_sub .., unary_bufs_sub .., binary_bufs_sub .., binary_bufs_sub .., unary_bufs_sub .., reshape_bufs_sub ..,
    nullary_bufs_sub .., unary_bufs_sub .., binary_bufs_sub .., unary_bufs_sub .., binary_bufs_sub .., unary_bufs_sub ..,
    nullary_bufs_sub .., unary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., reshape_bufs_sub .., nary_bufs_sub .., reshape_bufs_sub ..⟩

end Cert.ReferenceIdeal.HandRun

end
-- ==== Proof.RefRun.lean ====
/-
  The reference's run. Its @main is a straight line of 71 host operations (the calls unfolded); each rewrites the one
  buffer it writes from the buffers it reads and leaves the rest, so what a buffer holds at the end is the fold of the
  operations' results over the launch contents. At the result buffer that fold is the composed term `Term.refOut` of
  the two argument arrays; at the argument buffers, which no operation writes, it is the launch contents.
-/
import proofs.«181731_j61392262529219_1_alg».proof.Proof.RefTerm
import proofs.«181731_j61392262529219_1_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- The fold at the result buffer: each operation's result at its own buffer is its function of what its operands
    hold, and at any other buffer what was there; read back from the last regrouping to the arguments this is the
    stages of `Term` in order — the typed references' transports are the identity at these literal references, the
    regroupings' element-type transport is along a reflexive equation, and the joined family read at 0, 1, 2 is the
    three joined arrays. -/
theorem out_eq (V : Valuation τ sig (Elt F)) :
    after ops V (main_v35 : DevRef τ sig) = Term.refOut (V (main_arg0 : DevRef τ sig)) (V (main_arg1 : DevRef τ sig)) := by
  after_results_simp
  rfl

set_option maxRecDepth 8192 in
/-- No operation writes the first argument's buffer. -/
theorem arg0_eq (V : Valuation τ sig (Elt F)) :
    after ops V (main_arg0 : DevRef τ sig) = V (main_arg0 : DevRef τ sig) := by
  after_results_simp

set_option maxRecDepth 8192 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at `Term.refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = Term.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.HandRun

end
-- ==== Proof.RefReadLayout.lean ====
/-
  The reference's layout operations read at an index. Group (b, n) of the [32, ·, 8192, ·] arrays is row 8192·b + n of the
  flattened [262144, ·] ones (row-major order), so: the regrouped points at (8192·b + n, k, c) are the points at (b, c, n, k);
  the regrouped centres at (8192·b + n, c) are the centres at (b, n, c); the result at (b, n, f) is the joined [262144, 30] array
  at (8192·b + n, f); the join reads its first piece on columns 0–2, its second on 3–5, its third, at column f − 6, on 6–29; and
  the [262144, 8, 3] means flattened to 24 columns put octant e, coordinate c at column 3e + c. Last, the ten feature triples
  of the specification by the value of the triple's number.
-/
import proofs.«181731_j61392262529219_1_alg».proof.Proof.RefTerm
import proofs.«181731_j61392262529219_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.AtIndex

open Cert.ReferenceIdeal Cert.ReferenceIdeal.Gen Cert.ReferenceIdeal.Term Idealize.ShloMosaic Idealize.ShloMosaic.ValueIdx

/-- The row of group (b, n) in the flattened arrays: 8192·b + n. -/
def gi (b : Fin 32) (n : Fin 8192) : Fin 262144 := ⟨8192 * b.val + n.val, by omega⟩

theorem gi_val (b : Fin 32) (n : Fin 8192) : (gi b n).val = 8192 * b.val + n.val := rfl

/-- The regrouped points at (8192·b + n, k, c) are the points array at (b, c, n, k). -/
theorem X_apply (a0 : FVec Ideal S32x3x8192x64 .f32) (b : Fin 32) (n : Fin 8192) (k : Fin 64) (c : Fin 3) :
    X a0 (ix3 (gi b n) k c) = a0 (ix4 b c n k) := by
  unfold X
  refine (shapeCast_apply _ _ (ix3 (gi b n) k c) (ix4 b n k c) ?_).trans ?_
  · rw [Shape.rowMajor_val_four, Shape.rowMajor_val_three]
    show ((b.val * 8192 + n.val) * 64 + k.val) * 3 + c.val = ((8192 * b.val + n.val) * 64 + k.val) * 3 + c.val
    omega
  · exact transpose_apply _ _ _ (ix4 b n k c) (ix4 b c n k) fun a =>
      match a with | ⟨0, _⟩ => rfl | ⟨1, _⟩ => rfl | ⟨2, _⟩ => rfl | ⟨3, _⟩ => rfl

/-- The regrouped centres at (8192·b + n, c) are the centres array at (b, n, c). -/
theorem ctr_apply (a1 : FVec Ideal S32x8192x3 .f32) (b : Fin 32) (n : Fin 8192) (c : Fin 3) :
    ctr a1 (ix2 (gi b n) c) = a1 (ix3 b n c) := by
  unfold ctr
  refine shapeCast_apply _ _ (ix2 (gi b n) c) (ix3 b n c) ?_
  rw [Shape.rowMajor_val_three, Shape.rowMajor_val_two]
  show (b.val * 8192 + n.val) * 3 + c.val = (8192 * b.val + n.val) * 3 + c.val
  omega

section Cat
variable {α : Type}

/-- The three-piece join along the features, read in its first piece (columns 0–2). -/
theorem cat_apply_fst (p q : S262144x3.Idx → α) (r : S262144x24.Idx → α) (g : Fin 262144) (f : Fin 30) (c : Fin 3)
    (hf : f.val = c.val) :
    concatenate S262144x30 1 [⟨S262144x3, p⟩, ⟨S262144x3, q⟩, ⟨S262144x24, r⟩]
      concatenates_S262144x3_S262144x3_S262144x24_S262144x30_d1 (ix2 g f) = p (ix2 g c) :=
  concatenate_apply_piece (1 : Fin 2) _ _ (ix2 g f) 0 (by simp) S262144x3 p rfl rfl 0 rfl (ix2 g c)
    (fun b => match b with
      | ⟨0, _⟩ => fun _ => rfl
      | ⟨1, _⟩ => fun h => absurd rfl h)
    (by show 0 + c.val = f.val; omega)

/-- … in its second piece (columns 3–5) … -/
theorem cat_apply_snd (p q : S262144x3.Idx → α) (r : S262144x24.Idx → α) (g : Fin 262144) (f : Fin 30) (c : Fin 3)
    (hf : f.val = 3 + c.val) :
    concatenate S262144x30 1 [⟨S262144x3, p⟩, ⟨S262144x3, q⟩, ⟨S262144x24, r⟩]
      concatenates_S262144x3_S262144x3_S262144x24_S262144x30_d1 (ix2 g f) = q (ix2 g c) :=
  concatenate_apply_piece (1 : Fin 2) _ _ (ix2 g f) 1 (by simp) S262144x3 q rfl rfl 3 rfl (ix2 g c)
    (fun b => match b with
      | ⟨0, _⟩ => fun _ => rfl
      | ⟨1, _⟩ => fun h => absurd rfl h)
    (by show 3 + c.val = f.val; omega)

/-- … and in its third piece (columns 6–29). -/
theorem cat_apply_thd (p q : S262144x3.Idx → α) (r : S262144x24.Idx → α) (g : Fin 262144) (f : Fin 30) (d : Fin 24)
    (hf : f.val = 6 + d.val) :
    concatenate S262144x30 1 [⟨S262144x3, p⟩, ⟨S262144x3, q⟩, ⟨S262144x24, r⟩]
      concatenates_S262144x3_S262144x3_S262144x24_S262144x30_d1 (ix2 g f) = r (ix2 g d) :=
  concatenate_apply_piece (1 : Fin 2) _ _ (ix2 g f) 2 (by simp) S262144x24 r rfl rfl 6 rfl (ix2 g d)
    (fun b => match b with
      | ⟨0, _⟩ => fun _ => rfl
      | ⟨1, _⟩ => fun h => absurd rfl h)
    (by show 6 + d.val = f.val; omega)

/-- The flattened [262144, 30] array regrouped as [32, 8192, 30]. -/
theorem regroup30_apply (v : S262144x30.Idx → α) (b : Fin 32) (n : Fin 8192) (f : Fin 30) :
    shapeCast S32x8192x30 v shapeCasts_S262144x30_S32x8192x30 (ix3 b n f) = v (ix2 (gi b n) f) := by
  refine shapeCast_apply _ _ (ix3 b n f) (ix2 (gi b n) f) ?_
  rw [Shape.rowMajor_val_three, Shape.rowMajor_val_two]
  show (8192 * b.val + n.val) * 30 + f.val = (b.val * 8192 + n.val) * 30 + f.val
  omega

/-- The [262144, 8, 3] array flattened to [262144, 24]: column 3e + c. -/
theorem flat24_apply (v : S262144x8x3.Idx → α) (g : Fin 262144) (d : Fin 24) (e : Fin 8) (c : Fin 3)
    (hd : d.val = 3 * e.val + c.val) :
    shapeCast S262144x24 v shapeCasts_S262144x8x3_S262144x24 (ix2 g d) = v (ix3 g e c) := by
  refine shapeCast_apply _ _ (ix2 g d) (ix3 g e c) ?_
  rw [Shape.rowMajor_val_three, Shape.rowMajor_val_two]
  show (g.val * 8 + e.val) * 3 + c.val = g.val * 24 + d.val
  omega

end Cat

/-- The first triple of the features is the deviations … -/
theorem feat_of_zero (g : Hist.Grp) (ctr : Fin 3 → EReal) (q : Fin 10) (c : Fin 3) (hq : q.val = 0) :
    Hist.feat g ctr q c = Hist.std g c := by
  obtain ⟨q, hq'⟩ := q
  obtain rfl : q = 0 := hq
  rfl

/-- … the second the centre … -/
theorem feat_of_one (g : Hist.Grp) (ctr : Fin 3 → EReal) (q : Fin 10) (c : Fin 3) (hq : q.val = 1) :
    Hist.feat g ctr q c = ctr c := by
  obtain ⟨q, hq'⟩ := q
  obtain rfl : q = 1 := hq
  rfl

/-- … and triple e + 2 the mean of octant e. -/
theorem feat_of_add_two (g : Hist.Grp) (ctr : Fin 3 → EReal) (q : Fin 10) (c : Fin 3) (e : Nat) (hq : q.val = e + 2) :
    Hist.feat g ctr q c = Hist.mmean g (BitVec.ofNat 32 e) c := by
  obtain ⟨q, hq'⟩ := q
  obtain rfl : q = e + 2 := hq
  rfl

end Cert.ReferenceIdeal.AtIndex

end
-- ==== Proof.RefReadOct.lean ====
/-
  The reference's octant stages read at an index, for any regrouped points array x [262144, 64, 3]: the three coordinate
  planes are x at coordinate 0, 1, 2; the sign test of a plane is the specification's `pos` of its element; the octant word
  is 4·[x > 0] + 2·[y > 0] + [z > 0] of neighbour k of group g; and the indicator at (g, k, e) compares that word with the
  word of e (the iota along the last axis) and converts the one-bit answer to the real 0 or 1: the specification's `mask`.
-/
import proofs.«181731_j61392262529219_1_alg».proof.Proof.RefTerm
import proofs.«181731_j61392262529219_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.AtIndex

open Cert.ReferenceIdeal Cert.ReferenceIdeal.Gen Cert.ReferenceIdeal.Term Idealize.ShloMosaic Idealize.ShloMosaic.ValueIdx

/-- One group's points of the regrouped array: coordinate `c` of neighbour `k` of group `g`. -/
def grpOf (x : FVec Ideal S262144x64x3 .f32) (g : Fin 262144) : Hist.Grp := fun c k => x (ix3 g k c)

theorem grpOf_apply (x : FVec Ideal S262144x64x3 .f32) (g : Fin 262144) (c : Fin 3) (k : Fin 64) :
    grpOf x g c k = x (ix3 g k c) := rfl

section Pointwise
variable {s : Shape} {w : Nat}
/-- Integer sums, products and comparisons read element by element. -/
theorem addi_apply (a b : IVec s w) (i : s.Idx) : addi a b i = IntOp.addi (a i) (b i) := rfl
theorem muli_apply (a b : IVec s w) (i : s.Idx) : muli a b i = IntOp.muli (a i) (b i) := rfl
theorem cmpi_apply (p : CmpIPredicate) (a b : IVec s w) (i : s.Idx) : cmpi p a b i = IntOp.cmpi p (a i) (b i) := rfl
/-- An unsigned word converted to a float is, on the extended reals, the word's value. -/
theorem uitofp_apply (a : IVec s w) (i : s.Idx) : (uitofp .f32 a : FVec Ideal s .f32) i = (((a i).toNat : ℝ) : EReal) := rfl
end Pointwise

/-- Plane 0 of the regrouped points. -/
theorem x0_apply (x : FVec Ideal S262144x64x3 .f32) (g : Fin 262144) (k : Fin 64) :
    x0 x (ix2 g k) = x (ix3 g k (0 : Fin 3)) := by
  unfold x0
  refine (shapeCast_apply _ _ (ix2 g k) (ix3 g k (0 : Fin 1)) ?_).trans ?_
  · rw [Shape.rowMajor_val_three, Shape.rowMajor_val_two]
    show (g.val * 64 + k.val) * 1 + 0 = g.val * 64 + k.val
    omega
  · exact extractStridedSlice_apply _ _ _ (ix3 g k (0 : Fin 1)) (ix3 g k (0 : Fin 3)) fun a =>
      match a with
      | ⟨0, _⟩ => (Nat.zero_add _).symm
      | ⟨1, _⟩ => (Nat.zero_add _).symm
      | ⟨2, _⟩ => rfl

/-- Plane 1. -/
theorem x1_apply (x : FVec Ideal S262144x64x3 .f32) (g : Fin 262144) (k : Fin 64) :
    x1 x (ix2 g k) = x (ix3 g k (1 : Fin 3)) := by
  unfold x1
  refine (shapeCast_apply _ _ (ix2 g k) (ix3 g k (0 : Fin 1)) ?_).trans ?_
  · rw [Shape.rowMajor_val_three, Shape.rowMajor_val_two]
    show (g.val * 64 + k.val) * 1 + 0 = g.val * 64 + k.val
    omega
  · exact extractStridedSlice_apply _ _ _ (ix3 g k (0 : Fin 1)) (ix3 g k (1 : Fin 3)) fun a =>
      match a with
      | ⟨0, _⟩ => (Nat.zero_add _).symm
      | ⟨1, _⟩ => (Nat.zero_add _).symm
      | ⟨2, _⟩ => rfl

/-- Plane 2. -/
theorem x2_apply (x : FVec Ideal S262144x64x3 .f32) (g : Fin 262144) (k : Fin 64) :
    x2 x (ix2 g k) = x (ix3 g k (2 : Fin 3)) := by
  unfold x2
  refine (shapeCast_apply _ _ (ix2 g k) (ix3 g k (0 : Fin 1)) ?_).trans ?_
  · rw [Shape.rowMajor_val_three, Shape.rowMajor_val_two]
    show (g.val * 64 + k.val) * 1 + 0 = g.val * 64 + k.val
    omega
  · exact extractStridedSlice_apply _ _ _ (ix3 g k (0 : Fin 1)) (ix3 g k (2 : Fin 3)) fun a =>
      match a with
      | ⟨0, _⟩ => (Nat.zero_add _).symm
      | ⟨1, _⟩ => (Nat.zero_add _).symm
      | ⟨2, _⟩ => rfl

/-- The sign test of a plane, element by element. -/
theorem posI_apply (v : FVec Ideal S262144x64 .f32) (g : Fin 262144) (k : Fin 64) :
    posI v (ix2 g k) = Hist.pos (v (ix2 g k)) := by
  have hz : broadcastInDim S262144x64 ![] bcast_S_S262144x64 (constant (F := Ideal) S_ .f32 0x00000000#32) (ix2 g k)
      = Ideal.ofBits .f32 0x00000000#32 :=
    broadcastInDim_apply _ _ _ (ix2 g k) ix0 (fun a => a.elim0)
  unfold posI
  rw [extui_apply, cmpf_apply, hz]
  rfl

/-- The octant word of neighbour `k` of group `g`. -/
theorem oct_apply (x : FVec Ideal S262144x64x3 .f32) (g : Fin 262144) (k : Fin 64) :
    oct x (ix2 g k) = Hist.oct (grpOf x g) k := by
  have h4 : broadcastInDim S262144x64 ![] bcast_S_S262144x64 (constantI S_ 32 4#32) (ix2 g k) = 4#32 :=
    broadcastInDim_apply _ _ _ (ix2 g k) ix0 (fun a => a.elim0)
  have h2 : broadcastInDim S262144x64 ![] bcast_S_S262144x64 (constantI S_ 32 2#32) (ix2 g k) = 2#32 :=
    broadcastInDim_apply _ _ _ (ix2 g k) ix0 (fun a => a.elim0)
  unfold oct
  rw [addi_apply, addi_apply, muli_apply, muli_apply, h4, h2, posI_apply, posI_apply, posI_apply,
    x0_apply, x1_apply, x2_apply]
  rfl

/-- The octant indicator: 1 where neighbour `k` of group `g` lies in octant `e`. -/
theorem onehot_apply (x : FVec Ideal S262144x64x3 .f32) (g : Fin 262144) (k : Fin 64) (e : Fin 8) :
    onehot x (ix3 g k e) = Hist.mask (grpOf x g) (BitVec.ofNat 32 e.val) k := by
  have hL : broadcastInDim S262144x64x8 ![0, 1, 2] bcast_S262144x64x1_S262144x64x8_0_1_2
      (broadcastInDim S262144x64x1 ![0, 1] bcast_S262144x64_S262144x64x1_0_1 (oct x)) (ix3 g k e)
        = Hist.oct (grpOf x g) k :=
    (broadcastInDim_apply _ _ _ (ix3 g k e) (ix3 g k (0 : Fin 1)) fun a =>
      match a with | ⟨0, _⟩ => rfl | ⟨1, _⟩ => rfl | ⟨2, _⟩ => rfl).trans
    ((broadcastInDim_apply _ _ _ (ix3 g k (0 : Fin 1)) (ix2 g k) fun a =>
      match a with | ⟨0, _⟩ => rfl | ⟨1, _⟩ => rfl).trans (oct_apply x g k))
  have hR : broadcastInDim S262144x64x8 ![0, 1, 2] bcast_S1x1x8_S262144x64x8_0_1_2 (iotaInDim S1x1x8 32 2) (ix3 g k e)
      = BitVec.ofNat 32 e.val :=
    broadcastInDim_apply _ _ _ (ix3 g k e) (ix3 (0 : Fin 1) (0 : Fin 1) e) fun a =>
      match a with | ⟨0, _⟩ => rfl | ⟨1, _⟩ => rfl | ⟨2, _⟩ => rfl
  unfold onehot
  rw [uitofp_apply, cmpi_apply, hL, hR]
  rfl

end Cert.ReferenceIdeal.AtIndex

end
-- ==== Proof.RefReadMeans.lean ====
/-
  The reference's per-octant sums, counts and means read at an index. The contraction of the indicator [262144, 64, 8] with
  the points [262144, 64, 3] has the group as batch axis and the neighbour as its one contracted axis, so at (g, e, c) it is
  the sum over the 64 neighbours of indicator(g, k, e) · x(g, k, c); the count at (g, e) is the host sum of the indicator over
  the neighbours from the zero word; the mean is the quotient of the sum by the count clamped below by the word of 1.0,
  the count repeated along the coordinates.
-/
import proofs.«181731_j61392262529219_1_alg».proof.Proof.RefTerm
import proofs.«181731_j61392262529219_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«181731_j61392262529219_1_alg».proof.Proof.RefReadOct

noncomputable section

namespace Cert.ReferenceIdeal.AtIndex

open Cert.ReferenceIdeal Cert.ReferenceIdeal.Gen Cert.ReferenceIdeal.Term Idealize.ShloMosaic Idealize.ShloMosaic.ValueIdx

/-- The dimension numbers of the per-octant contraction: batch axis the group, contracted axis the neighbour. -/
abbrev DK : DotDims S262144x64x8 S262144x64x3 S262144x8x3 := dot_S262144x64x8_S262144x64x3_S262144x8x3_1_1_2_2_0_0

/-- The contraction of a [groups, 64, 8] array with a [groups, 64, 3] array over the neighbours, group by group. -/
theorem dotK_apply (A : FVec Ideal S262144x64x8 .f32) (B : FVec Ideal S262144x64x3 .f32) (g : Fin 262144) (e : Fin 8) (c : Fin 3) :
    Host.dotGeneral (F := Ideal) DK none A B (ix3 g e c) = ∑ k : Fin 64, A (ix3 g k e) * B (ix3 g k c) := by
  show FloatOps.dotGeneral DK none _ A B (ix3 g e c) = _
  rw [Ideal.dotGeneral_apply, ← Equiv.sum_comp (contrEquiv1 DK 64 rfl rfl).symm]
  refine Finset.sum_congr rfl fun k _ => ?_
  have c3 := contrEquiv1_symm_val DK 64 rfl rfl k
  have l3 : DK.lhsIdx (ix3 g e c) ((contrEquiv1 DK 64 rfl rfl).symm k) = ix3 g k e := by
    funext ax; apply Fin.ext
    match ax with
    | ⟨0, _⟩ => simp [DotDims.lhsIdx, DK, dot_S262144x64x8_S262144x64x3_S262144x8x3_1_1_2_2_0_0]; rfl
    | ⟨1, _⟩ => simp [DotDims.lhsIdx, DK, dot_S262144x64x8_S262144x64x3_S262144x8x3_1_1_2_2_0_0]; exact c3
    | ⟨2, _⟩ => simp [DotDims.lhsIdx, DK, dot_S262144x64x8_S262144x64x3_S262144x8x3_1_1_2_2_0_0]; rfl
  have r3 : DK.rhsIdx (ix3 g e c) ((contrEquiv1 DK 64 rfl rfl).symm k) = ix3 g k c := by
    funext ax; apply Fin.ext
    match ax with
    | ⟨0, _⟩ => simp [DotDims.rhsIdx, DK, dot_S262144x64x8_S262144x64x3_S262144x8x3_1_1_2_2_0_0]; rfl
    | ⟨1, _⟩ => simp [DotDims.rhsIdx, DK, dot_S262144x64x8_S262144x64x3_S262144x8x3_1_1_2_2_0_0]; exact c3
    | ⟨2, _⟩ => simp [DotDims.rhsIdx, DK, dot_S262144x64x8_S262144x64x3_S262144x8x3_1_1_2_2_0_0]; rfl
  rw [l3, r3]

/-- The host quotient reads element by element: the extended reals' division. -/
theorem hostDivf_apply {s : Shape} (a b : FVec Ideal s .f32) (i : s.Idx) : Host.divf a b i = Ideal.div (a i) (b i) := rfl

/-- The host sum over the neighbours of a [groups, 64, 8] array, from the zero word, is the sum over the 64 neighbours. -/
theorem reduceK8_apply (y : FVec Ideal S262144x64x8 .f32) (g : Fin 262144) (e : Fin 8) :
    Host.reduceAdd (F := Ideal) y (constant (F := Ideal) S_ .f32 0x00000000#32) reducesTo_S262144x64x8_S262144x8_d1 h_S_ (ix2 g e)
      = ∑ k : Fin 64, y (ix3 g k e) := by
  have hR : S262144x64x8.Reduces [1] S262144x8 := by decide
  unfold Host.reduceAdd
  rw [Ideal.hostReduceAdd_def]
  refine (Ideal.hostReduceAdd_single reducesTo_S262144x64x8_S262144x8_d1 hR y _ (ix2 g e)).trans ?_
  rw [constant_apply, Ideal.ofBits_zero_f32, zero_add]
  show ∑ k : Fin 64, y (hR.lift (ix2 g e) k) = _
  refine Finset.sum_congr rfl fun k _ => congrArg y ?_
  funext a
  match a with
  | ⟨0, _⟩ => rfl
  | ⟨1, _⟩ => rfl
  | ⟨2, _⟩ => rfl

/-- The per-octant sums: over the neighbours, the indicator times the coordinate. -/
theorem sums_apply (x : FVec Ideal S262144x64x3 .f32) (g : Fin 262144) (e : Fin 8) (c : Fin 3) :
    sums x (ix3 g e c) = Hist.msum (grpOf x g) (BitVec.ofNat 32 e.val) c := by
  unfold sums
  rw [dotK_apply]
  unfold Hist.msum
  exact Finset.sum_congr rfl fun k _ => by rw [onehot_apply, grpOf_apply]

/-- The per-octant counts: over the neighbours, the indicator. -/
theorem counts_apply (x : FVec Ideal S262144x64x3 .f32) (g : Fin 262144) (e : Fin 8) :
    counts x (ix2 g e) = Hist.cnt (grpOf x g) (BitVec.ofNat 32 e.val) := by
  unfold counts
  rw [reduceK8_apply]
  unfold Hist.cnt
  exact Finset.sum_congr rfl fun k _ => onehot_apply x g k e

/-- The per-octant means: the sums over the counts clamped below by 1. -/
theorem means_apply (x : FVec Ideal S262144x64x3 .f32) (g : Fin 262144) (e : Fin 8) (c : Fin 3) :
    means x (ix3 g e c) = Hist.mmean (grpOf x g) (BitVec.ofNat 32 e.val) c := by
  have h1 : broadcastInDim S262144x8 ![] bcast_S_S262144x8 (constant (F := Ideal) S_ .f32 0x3F800000#32) (ix2 g e)
      = Ideal.ofBits .f32 0x3F800000#32 :=
    broadcastInDim_apply _ _ _ (ix2 g e) ix0 (fun a => a.elim0)
  have hD : broadcastInDim S262144x8x3 ![0, 1, 2] bcast_S262144x8x1_S262144x8x3_0_1_2
      (broadcastInDim S262144x8x1 ![0, 1] bcast_S262144x8_S262144x8x1_0_1
        (maximumf (counts x) (broadcastInDim S262144x8 ![] bcast_S_S262144x8 (constant (F := Ideal) S_ .f32 0x3F800000#32))))
      (ix3 g e c) = max (Hist.cnt (grpOf x g) (BitVec.ofNat 32 e.val)) (Ideal.ofBits .f32 0x3F800000#32) :=
    (broadcastInDim_apply _ _ _ (ix3 g e c) (ix3 g e (0 : Fin 1)) fun a =>
      match a with | ⟨0, _⟩ => rfl | ⟨1, _⟩ => rfl | ⟨2, _⟩ => rfl).trans
    ((broadcastInDim_apply _ _ _ (ix3 g e (0 : Fin 1)) (ix2 g e) fun a =>
      match a with | ⟨0, _⟩ => rfl | ⟨1, _⟩ => rfl).trans (by rw [maximumf_apply, h1, counts_apply]))
  unfold means
  rw [hostDivf_apply, hD, sums_apply]
  rfl

end Cert.ReferenceIdeal.AtIndex

end
-- ==== Proof.RefStd.lean ====
/-
  The reference's deviation column read at an index. Group `g = 8192·b + n` of the regrouped points is group (b, n) of the
  points array; the host sum over the neighbours is the plain sum of 64 terms; the mean is that sum over 64; the
  variance's divisor `64 − 1` is the real 63, positive, so the guarded quotient is the quotient itself; and the square
  root is the extended reals'. Hence the column is `Hist.std` of the group.
-/
import proofs.«181731_j61392262529219_1_alg».proof.Proof.RefTerm
import proofs.«181731_j61392262529219_1_alg».proof.Proof.Spec
import Idealize.ShloMosaic.Lib.ValueIdx
import Idealize.ShloMosaic.Lib.Pipeline.Value
import Idealize.ShloMosaic.PureOps.Ideal.Laws

noncomputable section

namespace Cert.ReferenceIdeal.AtStd

open Cert.ReferenceIdeal Cert.ReferenceIdeal.Gen Idealize.ShloMosaic Idealize.ShloMosaic.ValueIdx

/-- The float word of 64.0 denotes the real 64. -/
theorem word_64 : Ideal.ofBits .f32 0x42800000#32 = ((64 : ℝ) : EReal) := by
  simp [Ideal.ofBits, Ideal.ieee, -EReal.coe_mul]; norm_num

/-- The float word of 63.0 denotes the real 63. -/
theorem word_63 : Ideal.ofBits .f32 0x427C0000#32 = ((63 : ℝ) : EReal) := by
  simp [Ideal.ofBits, Ideal.ieee, -EReal.coe_mul]; norm_num

/-- 64 minus the integer one, converted exactly, is the word of 63.0. -/
theorem divisor_63 :
    Ideal.ofBits .f32 0x42800000#32 - (((1#32 : BitVec 32).toInt : ℝ) : EReal) = Ideal.ofBits .f32 0x427C0000#32 := by
  rw [word_64, word_63, ← EReal.coe_sub]
  norm_num

/-- 63 is greater than zero. -/
theorem divisor_pos : Ideal.cmp .ogt (Ideal.ofBits .f32 0x427C0000#32) (Ideal.ofBits .f32 0x00000000#32) = 1#1 := by
  rw [word_63, Ideal.ofBits_zero_f32]
  simp [Ideal.cmp]

/-- Row `8192·b + n` of the regrouped points is group (b, n): neighbour `k`, coordinate `c`. -/
theorem X_apply (a0 : FVec Ideal S32x3x8192x64 .f32) (b : Fin 32) (n : Fin 8192) (g : Fin 262144)
    (hg : g.val = 8192 * b.val + n.val) (k : Fin 64) (c : Fin 3) :
    Term.X (F := Ideal) a0 (ix3 g k c) = a0 (ix4 b c n k) := by
  unfold Term.X
  refine (shapeCast_apply _ _ (ix3 g k c) (ix4 b n k c : S32x8192x64x3.Idx) ?_).trans ?_
  · rw [Shape.rowMajor_val_four, Shape.rowMajor_val_three]
    show ((b.val * 8192 + n.val) * 64 + k.val) * 3 + c.val = (g.val * 64 + k.val) * 3 + c.val
    omega
  · exact transpose_apply [0, 2, 3, 1] a0 _ (ix4 b n k c : S32x8192x64x3.Idx) (ix4 b c n k : S32x3x8192x64.Idx)
      (fun d => match d with | ⟨0, _⟩ => rfl | ⟨1, _⟩ => rfl | ⟨2, _⟩ => rfl | ⟨3, _⟩ => rfl)

/-- The host sum over the neighbours from the zero word, at (g, c): the sum of the 64 entries. -/
theorem hostSum_apply (x : FVec Ideal S262144x64x3 .f32) (g : Fin 262144) (c : Fin 3) :
    Host.reduceAdd (F := Ideal) x (constant (F := Ideal) S_ .f32 0x00000000#32) reducesTo_S262144x64x3_S262144x3_d1 h_S_ (ix2 g c)
      = ∑ k : Fin 64, x (ix3 g k c) := by
  unfold Host.reduceAdd
  rw [Ideal.hostReduceAdd_def]
  refine (Ideal.hostReduceAdd_single reducesTo_S262144x64x3_S262144x3_d1
    (by decide : S262144x64x3.Reduces [1] S262144x3) x _ (ix2 g c)).trans ?_
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl
  | ⟨2, _⟩ => rfl

/-- The repeated mean at (g, k, c): the neighbours' sum over the word of 64.0. -/
theorem meanB_apply (x : FVec Ideal S262144x64x3 .f32) (g : Fin 262144) (k : Fin 64) (c : Fin 3) :
    Term.meanB x (ix3 g k c) = Ideal.div (∑ k' : Fin 64, x (ix3 g k' c)) (Ideal.ofBits .f32 0x42800000#32) := by
  unfold Term.meanB
  refine (broadcastInDim_apply _ _ _ (ix3 g k c) (ix3 g (0 : Fin 1) c : S262144x1x3.Idx)
    (fun a => match a with | ⟨0, _⟩ => rfl | ⟨1, _⟩ => rfl | ⟨2, _⟩ => rfl)).trans ?_
  show Ideal.div _ _ = _
  refine congrArg₂ Ideal.div ?_ ?_
  · refine (broadcastInDim_apply _ _ _ (ix3 g (0 : Fin 1) c : S262144x1x3.Idx) (ix2 g c : S262144x3.Idx)
      (fun a => match a with | ⟨0, _⟩ => rfl | ⟨1, _⟩ => rfl)).trans ?_
    exact hostSum_apply x g c
  · exact broadcastInDim_apply _ _ _ (ix3 g (0 : Fin 1) c : S262144x1x3.Idx) (ix0 : S_.Idx) (fun a => a.elim0)

/-- The variance's divisor, a rank-zero value, is the word of 63.0. -/
theorem ddof_apply : Term.ddof (F := Ideal) ix0 = Ideal.ofBits .f32 0x427C0000#32 := divisor_63

/-- The guarded quotient at (g, c) is the quotient: the sum of squared deviations over 63. -/
theorem var_apply (x : FVec Ideal S262144x64x3 .f32) (g : Fin 262144) (c : Fin 3) :
    Term.var x (ix2 g c)
      = Ideal.div (∑ k : Fin 64, Term.dev2 x (ix3 g k c)) (Ideal.ofBits .f32 0x427C0000#32) := by
  unfold Term.var
  rw [select_apply]
  have hc : broadcastInDim S262144x3 ![] bcast_S_S262144x3
      (cmpf .ogt (Term.ddof (F := Ideal)) (constant (F := Ideal) S_ .f32 0x00000000#32)) (ix2 g c) = 1#1 := by
    refine (broadcastInDim_apply _ _ _ (ix2 g c : S262144x3.Idx) (ix0 : S_.Idx) (fun a => a.elim0)).trans ?_
    show Ideal.cmp .ogt (Term.ddof (F := Ideal) ix0) (Ideal.ofBits .f32 0x00000000#32) = 1#1
    rw [ddof_apply]
    exact divisor_pos
  rw [hc, select_one]
  show Ideal.div _ _ = _
  refine congrArg₂ Ideal.div (hostSum_apply _ g c) ?_
  refine (broadcastInDim_apply _ _ _ (ix2 g c : S262144x3.Idx) (ix0 : S_.Idx) (fun a => a.elim0)).trans ?_
  exact ddof_apply

/-- The deviation column of the regrouped points at row `8192·b + n` is the deviation of group (b, n). -/
theorem std_apply (a0 : FVec Ideal S32x3x8192x64 .f32) (b : Fin 32) (n : Fin 8192) (g : Fin 262144)
    (hg : g.val = 8192 * b.val + n.val) (c : Fin 3) :
    Term.std (F := Ideal) (Term.X a0) (ix2 g c) = Hist.std (Hist.grp a0 b n) c := by
  have hmean : ∀ k : Fin 64, Term.meanB (Term.X (F := Ideal) a0) (ix3 g k c) = Hist.mean (Hist.grp a0 b n) c := by
    intro k
    rw [meanB_apply]
    unfold Hist.mean Hist.grp
    exact congrArg (fun s => Ideal.div s _) (Finset.sum_congr rfl fun k' _ => X_apply a0 b n g hg k' c)
  show Ideal.sqrt (Term.var (Term.X (F := Ideal) a0) (ix2 g c)) = _
  rw [var_apply]
  unfold Hist.std
  refine congrArg (fun s => Ideal.sqrt (Ideal.div s _)) (Finset.sum_congr rfl fun k _ => ?_)
  show (Term.X (F := Ideal) a0 (ix3 g k c) - Term.meanB (Term.X (F := Ideal) a0) (ix3 g k c))
      * (Term.X (F := Ideal) a0 (ix3 g k c) - Term.meanB (Term.X (F := Ideal) a0) (ix3 g k c)) = _
  rw [hmean k, X_apply a0 b n g hg k c]
  rfl

end Cert.ReferenceIdeal.AtStd

end
-- ==== Proof.RefRead.lean ====
/-
  The reference's composed term is the specification's array. At (b, n, f) the outer regrouping reads row 8192·b + n,
  column f of the joined [262144, 30] array; column f lies in the deviations (f < 3), the centre (3 ≤ f < 6) or the 24 octant
  means (6 ≤ f, at column f − 6 = 3·e + c with e = (f − 6) / 3 and c = f % 3); each piece read at that row and column is the
  specification's feature triple f / 3 (0, 1, e + 2) at coordinate f % 3 of group (b, n).
-/
import proofs.«181731_j61392262529219_1_alg».proof.Proof.RefTerm
import proofs.«181731_j61392262529219_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«181731_j61392262529219_1_alg».proof.Proof.RefReadLayout
import proofs.«181731_j61392262529219_1_alg».proof.Proof.RefReadMeans
import proofs.«181731_j61392262529219_1_alg».proof.Proof.RefStd

noncomputable section

namespace Cert.ReferenceIdeal.AtIndex

open Cert.ReferenceIdeal Cert.ReferenceIdeal.Gen Cert.ReferenceIdeal.Term Idealize.ShloMosaic Idealize.ShloMosaic.ValueIdx

/-- One group of the regrouped points is that group of the points array. -/
theorem grpOf_X (a0 : FVec Ideal S32x3x8192x64 .f32) (b : Fin 32) (n : Fin 8192) :
    grpOf (X a0) (gi b n) = Hist.grp a0 b n := by
  funext c k
  exact X_apply a0 b n k c

/-- The reference's result is the specification's array: at (b, n, f) feature `f / 3`, coordinate `f % 3`, of group (b, n). -/
theorem refOut_eq (a0 : FVec Ideal S32x3x8192x64 .f32) (a1 : FVec Ideal S32x8192x3 .f32) :
    Cert.ReferenceIdeal.Term.refOut (F := Ideal) a0 a1 = Hist.G a0 a1 := by
  funext i
  obtain ⟨b, n, f, rfl⟩ : ∃ (b : Fin 32) (n : Fin 8192) (f : Fin 30), i = ix3 b n f := ⟨i 0, i 1, i 2, eq_ix3 i⟩
  rw [Hist.G_ix3]
  unfold refOut Hist.featAt
  rw [regroup30_apply]
  by_cases h3 : f.val < 3
  · -- columns 0–2: the deviations
    rw [cat_apply_fst _ _ _ (gi b n) f ⟨f.val % 3, by omega⟩ (by show f.val = f.val % 3; omega),
      Cert.ReferenceIdeal.AtStd.std_apply a0 b n (gi b n) rfl,
      feat_of_zero _ _ _ _ (by show f.val / 3 = 0; omega)]
  · by_cases h6 : f.val < 6
    · -- columns 3–5: the centre
      rw [cat_apply_snd _ _ _ (gi b n) f ⟨f.val % 3, by omega⟩ (by show f.val = 3 + f.val % 3; omega),
        ctr_apply, feat_of_one _ _ _ _ (by show f.val / 3 = 1; omega)]
      rfl
    · -- columns 6–29: octant (f − 6) / 3, coordinate f % 3
      rw [cat_apply_thd _ _ _ (gi b n) f ⟨f.val - 6, by omega⟩ (by show f.val = 6 + (f.val - 6); omega),
        flat24_apply _ (gi b n) ⟨f.val - 6, by omega⟩ ⟨(f.val - 6) / 3, by omega⟩ ⟨f.val % 3, by omega⟩
          (by show f.val - 6 = 3 * ((f.val - 6) / 3) + f.val % 3; omega),
        means_apply, grpOf_X,
        feat_of_add_two _ _ _ _ ((f.val - 6) / 3) (by show f.val / 3 = (f.val - 6) / 3 + 2; omega)]

end Cert.ReferenceIdeal.AtIndex

end
-- ==== Proof.lean ====
/-
  Octant histogram features of point groups: for each of 32 × 8192 groups of 64 neighbours (three coordinates each) and
  the group's centre, thirty numbers — the unbiased standard deviation of each coordinate over the neighbours, the centre,
  and for each of the eight sign octants the mean of the neighbours lying in it (the count clamped below by one).

  The kernel computes them block by block (1024 groups per grid point, channel-first, the eight octants unrolled) and the
  reference on the whole arrays regrouped as [groups, neighbours, coordinates] (the octant indicator contracted with the
  points). Read on the extended reals both end with the SAME function `Hist.G` of the two argument arrays
  (Proof/Spec.lean): the kernel by its generated value leg, the block read at an index (Proof/KernelBlock.lean) and the
  blocks tiling the array (Proof/KernelArray.lean); the reference by its run (Proof/RefRun.lean) over its staged term
  (Proof/RefTerm.lean) read at an index (Proof/RefStd.lean, Proof/RefRead.lean). No law beyond the layout of the same
  sums is used, so the finiteness precondition is never opened. The three frames are the generated ones (the reference's
  is its run with the result dropped); the kernel has no rewritten operation, so nothing is to be preserved.
-/
import proofs.«181731_j61392262529219_1_alg».proof.Defs
import proofs.«181731_j61392262529219_1_alg».proof.Proof.Gen.Kernel
import proofs.«181731_j61392262529219_1_alg».proof.Proof.Gen.Kernel.Skeleton
import proofs.«181731_j61392262529219_1_alg».proof.Proof.Gen.Kernel.Launch
import proofs.«181731_j61392262529219_1_alg».proof.Proof.Gen.Kernel.Points
import proofs.«181731_j61392262529219_1_alg».proof.Proof.Gen.Kernel.Frame
import proofs.«181731_j61392262529219_1_alg».proof.Proof.Gen.KernelIdeal
import proofs.«181731_j61392262529219_1_alg».proof.Proof.Gen.KernelIdeal.Skeleton
import proofs.«181731_j61392262529219_1_alg».proof.Proof.Gen.KernelIdeal.Launch
import proofs.«181731_j61392262529219_1_alg».proof.Proof.Gen.KernelIdeal.Points
import proofs.«181731_j61392262529219_1_alg».proof.Proof.Gen.KernelIdeal.Frame
import proofs.«181731_j61392262529219_1_alg».proof.Proof.Gen.KernelIdeal.Value
import proofs.«181731_j61392262529219_1_alg».proof.Proof.Gen.ReferenceIdeal
import proofs.«181731_j61392262529219_1_alg».proof.Proof.Gen.Pre_finite_inputs
import proofs.«181731_j61392262529219_1_alg».proof.Proof.KernelArray
import proofs.«181731_j61392262529219_1_alg».proof.Proof.RefRun
import proofs.«181731_j61392262529219_1_alg».proof.Proof.RefRead
import Idealize.ShloMosaic.Adequacy
import Idealize.ShloMosaic.Init

noncomputable section

namespace Cert.Proof

open Idealize.ShloMosaic Idealize.SL.Sem

/-- The word-level kernel terminates without fault and leaves its arguments unchanged (the generated frame). -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped: it terminates and leaves its arguments unchanged. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- No operation of the kernel was rewritten for the reading on the extended reals: nothing to preserve. -/
theorem preserves : Cert.preserves_Kernel_KernelIdeal := trivial

/-- Both programs end with the feature array `Hist.G` of the two argument arrays: the kernel block by block,
    the reference stage by stage; the arrays agree, so the results are equal entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.AtIndex.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
